-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S64x128 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : FVec F S100000x128 .f32) (main_arg2 : IVec S2x1600000 32) (main_arg3 : FVec F S128x128 .f32) (main_arg4 : FVec F S128 .f32) (main_arg5 : FVec F S128x128 .f32) (main_arg6 : FVec F S128 .f32) (main_arg7 : FVec F S64x128 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S1x128 : Shape := ⟨2, ![1, 128]⟩
abbrev S1x64 : Shape := ⟨2, ![1, 64]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩

abbrev nBuf : Space → Nat
  | .hbm => 41
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S100000x1, .f32⟩
  | .hbm, ⟨33, _⟩ => ⟨S128x128, .f32⟩
  | .hbm, ⟨34, _⟩ => ⟨S128x128, .f32⟩
  | .hbm, ⟨35, _⟩ => ⟨S128x64, .f32⟩
  | .hbm, ⟨36, _⟩ => ⟨S1x128, .f32⟩
  | .hbm, ⟨37, _⟩ => ⟨S1x128, .f32⟩
  | .hbm, ⟨38, _⟩ => ⟨S1x64, .f32⟩
  | .hbm, ⟨39, _⟩ => ⟨S100000x128, .f32⟩
  | .hbm, ⟨40, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S4000x128, .f32⟩
  | .local _ .vmem, ⟨13, _⟩ => ⟨S4000x128, .f32⟩
  | .local _ .vmem, ⟨14, _⟩ => ⟨S4000x64, .f32⟩
  | .local _ .vmem, ⟨15, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  transposes_S64x128_S128x64_1_0 : S64x128.Transposes [1, 0] S128x64
  shapeCasts_S128_S1x128 : S128.ShapeCasts S1x128
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x64.size a ≤ S100000x64.size a
  hwx0_10 : ∀ i : grid0.Coords, EltTy.bits .f32 = 32 ∨ (Rect.block (s := S100000x64) S4000x64.size (cc0_transform_10 i) (hinb0_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v25_1) S4000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S128x128, .f32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S128x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.KernelBody.lean ====
/-
  The kernel body's arithmetic at one element of a block.

  A block is 4000 node rows. The body forms, per row p and feature q,
      max( ((Σ j, A p j · W j q) + d p · b q) + ((Σ j, U p j · V j q) + c q), 0 )
  from the block A of summed source features, the column d of in-degrees, the block U of the nodes' own inputs, the
  two weight matrices W, V (input-major: row j, column q) and the two bias rows b, c; and then, per row p and output o,
      (Σ k, H p k · Q k o) + r o
  from that result H, the head's weights Q and bias row r. The matrix products are into a zero accumulator, the
  narrowing of the operands is the identity on the extended reals, and the column and the rows are spread over the
  block by broadcasts; what follows reads each of these at explicit coordinates.
-/
import proofs.«134812_j43361989821071_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import proofs.«134812_j43361989821071_2_alg».proof.Proof.LibDotRead
import proofs.«134812_j43361989821071_2_alg».proof.Proof.LibLayoutRead

noncomputable section

open scoped BigOperators

namespace Cert.KernelIdeal.Body

open Cert.KernelIdeal Cert.KernelIdeal.Gen Idealize.ShloMosaic Idealize.ShloMosaic.ValueIdx

/-- A row [1, b] spread over a rows reads, at (r, j), the row at j. -/
theorem bcast_row {α : Type} {a b : ℕ} (v : (⟨2, ![1, b]⟩ : Shape).Idx → α) (h : (⟨2, ![1, b]⟩ : Shape).Broadcasts ⟨2, ![a, b]⟩)
    (r : Fin a) (j : Fin b) : broadcastTo ⟨2, ![a, b]⟩ v h (ix2 r j) = v (ix2 (0 : Fin 1) j) := by
  refine broadcastTo_apply v h (ix2 r j) (ix2 (0 : Fin 1) j) fun ax => ?_
  match ax with
  | ⟨0, _⟩ => show (0 : ℕ) = if (1 : ℕ) = 1 then 0 else _; rw [if_pos rfl]
  | ⟨1, _⟩ => exact Cert.LayoutRead.unit_or b j

/-- The square products contract the one axis of extent 128: left operand at (row, contraction), right operand at
    (contraction, column). -/
theorem plain_sq : Cert.DotRead.Plain dot_S4000x128_S128x128_S4000x128_1_0_0_1_n_n where
  rank := rfl
  size := rfl
  lhs0 i q := by
    unfold DotDims.lhsIdx
    rw [dif_neg (show ¬(0 : Fin S4000x128.rank) ∈ dot_S4000x128_S128x128_S4000x128_1_0_0_1_n_n.lhsBatch by decide),
      dif_pos (show (0 : Fin S4000x128.rank) ∈ dot_S4000x128_S128x128_S4000x128_1_0_0_1_n_n.lhsNonContracting by decide)]
    rfl
  lhs1 i q := dot_S4000x128_S128x128_S4000x128_1_0_0_1_n_n.lhsIdx_val_of_single rfl i q
  rhs0 i q := dot_S4000x128_S128x128_S4000x128_1_0_0_1_n_n.rhsIdx_val_of_single rfl i q
  rhs1 i q := by
    unfold DotDims.rhsIdx
    rw [dif_neg (show ¬(1 : Fin S128x128.rank) ∈ dot_S4000x128_S128x128_S4000x128_1_0_0_1_n_n.rhsBatch by decide),
      dif_pos (show (1 : Fin S128x128.rank) ∈ dot_S4000x128_S128x128_S4000x128_1_0_0_1_n_n.rhsNonContracting by decide)]
    rfl

/-- The head's product contracts the same axis into 64 columns. -/
theorem plain_head : Cert.DotRead.Plain dot_S4000x128_S128x64_S4000x64_1_0_0_1_n_n where
  rank := rfl
  size := rfl
  lhs0 i q := by
    unfold DotDims.lhsIdx
    rw [dif_neg (show ¬(0 : Fin S4000x128.rank) ∈ dot_S4000x128_S128x64_S4000x64_1_0_0_1_n_n.lhsBatch by decide),
      dif_pos (show (0 : Fin S4000x128.rank) ∈ dot_S4000x128_S128x64_S4000x64_1_0_0_1_n_n.lhsNonContracting by decide)]
    rfl
  lhs1 i q := dot_S4000x128_S128x64_S4000x64_1_0_0_1_n_n.lhsIdx_val_of_single rfl i q
  rhs0 i q := dot_S4000x128_S128x64_S4000x64_1_0_0_1_n_n.rhsIdx_val_of_single rfl i q
  rhs1 i q := by
    unfold DotDims.rhsIdx
    rw [dif_neg (show ¬(1 : Fin S128x64.rank) ∈ dot_S4000x128_S128x64_S4000x64_1_0_0_1_n_n.rhsBatch by decide),
      dif_pos (show (1 : Fin S128x64.rank) ∈ dot_S4000x128_S128x64_S4000x64_1_0_0_1_n_n.rhsNonContracting by decide)]
    rfl

/-- The updated node state of a block, as the tree of vector operations, the same-shape casts dropped. -/
theorem hid_tree (x0 : Vec Ideal S4000x128 .f32) (x3 : Vec Ideal S128x128 .f32) (x1 : Vec Ideal S4000x1 .f32)
    (x4 : Vec Ideal S1x128 .f32) (x2 : Vec Ideal S4000x128 .f32) (x5 : Vec Ideal S128x128 .f32) (x6 : Vec Ideal S1x128 .f32) :
    k0_pay2 x0 x3 x1 x4 x2 x5 x6
      = maximumf
          (addf
            (addf (matmul dot_S4000x128_S128x128_S4000x128_1_0_0_1_n_n none (truncf .bf16 x0 Facts₀.bitsLt_bf16_f32)
                (truncf .bf16 x3 Facts₀.bitsLt_bf16_f32) (constant (F := Ideal) S4000x128 .f32 0x00000000#32))
              (mulf (broadcastTo S4000x128 x1 Facts₀.broadcasts_S4000x1_S4000x128) (broadcastTo S4000x128 x4 Facts₀.broadcasts_S1x128_S4000x128)))
            (addf (matmul dot_S4000x128_S128x128_S4000x128_1_0_0_1_n_n none (truncf .bf16 x2 Facts₀.bitsLt_bf16_f32)
                (truncf .bf16 x5 Facts₀.bitsLt_bf16_f32) (constant (F := Ideal) S4000x128 .f32 0x00000000#32))
              (broadcastTo S4000x128 x6 Facts₀.broadcasts_S1x128_S4000x128)))
          (broadcast S4000x128 (Scalar.ofBits (F := Ideal) .f32 0x00000000#32)) := by
  unfold k0_pay2
  simp only [shapeCast_self]

/-- THE UPDATED NODE STATE AT ROW p, FEATURE q of a block. -/
theorem hid_apply (x0 : Vec Ideal S4000x128 .f32) (x3 : Vec Ideal S128x128 .f32) (x1 : Vec Ideal S4000x1 .f32)
    (x4 : Vec Ideal S1x128 .f32) (x2 : Vec Ideal S4000x128 .f32) (x5 : Vec Ideal S128x128 .f32) (x6 : Vec Ideal S1x128 .f32)
    (p : Fin 4000) (q : Fin 128) :
    k0_pay2 x0 x3 x1 x4 x2 x5 x6 (ix2 p q)
      = max (((∑ j : Fin 128, x0 (ix2 p j) * x3 (ix2 j q)) + x1 (ix2 p (0 : Fin 1)) * x4 (ix2 (0 : Fin 1) q))
          + ((∑ j : Fin 128, x2 (ix2 p j) * x5 (ix2 j q)) + x6 (ix2 (0 : Fin 1) q))) (0 : EReal) := by
  rw [hid_tree]
  have e1 := Cert.DotRead.matmul_zero_apply dot_S4000x128_S128x128_S4000x128_1_0_0_1_n_n plain_sq none
    (truncf .bf16 x0 Facts₀.bitsLt_bf16_f32) (truncf .bf16 x3 Facts₀.bitsLt_bf16_f32) p q
  have e2 := Cert.DotRead.matmul_zero_apply dot_S4000x128_S128x128_S4000x128_1_0_0_1_n_n plain_sq none
    (truncf .bf16 x2 Facts₀.bitsLt_bf16_f32) (truncf .bf16 x5 Facts₀.bitsLt_bf16_f32) p q
  have e3 := Cert.LayoutRead.bcast_col x1 Facts₀.broadcasts_S4000x1_S4000x128 p q
  have e4 := bcast_row x4 Facts₀.broadcasts_S1x128_S4000x128 p q
  have e5 := bcast_row x6 Facts₀.broadcasts_S1x128_S4000x128 p q
  show max ((_ + _ * _) + (_ + _)) (Ideal.ofBits .f32 0x00000000#32) = _
  rw [Ideal.ofBits_zero_f32]
  exact congrArg (max · (0 : EReal)) (congrArg₂ (· + ·) (congrArg₂ (· + ·) e1 (congrArg₂ (· * ·) e3 e4)) (congrArg₂ (· + ·) e2 e5))

/-- The head over a block, as the tree of vector operations, the same-shape casts dropped. -/
theorem head_tree (h : FVec Ideal S4000x128 .f32) (x7 : Vec Ideal S128x64 .f32) (x8 : Vec Ideal S1x64 .f32) :
    addf (matmul dot_S4000x128_S128x64_S4000x64_1_0_0_1_n_n none (truncf .bf16 h Facts₀.bitsLt_bf16_f32)
          (truncf .bf16 (shapeCast S128x64 x7 Facts₀.shapeCasts_S128x64_S128x64) Facts₀.bitsLt_bf16_f32)
          (constant (F := Ideal) S4000x64 .f32 0x00000000#32))
        (broadcastTo S4000x64 (shapeCast S1x64 x8 Facts₀.shapeCasts_S1x64_S1x64) Facts₀.broadcasts_S1x64_S4000x64)
      = addf (matmul dot_S4000x128_S128x64_S4000x64_1_0_0_1_n_n none (truncf .bf16 h Facts₀.bitsLt_bf16_f32)
          (truncf .bf16 x7 Facts₀.bitsLt_bf16_f32) (constant (F := Ideal) S4000x64 .f32 0x00000000#32))
        (broadcastTo S4000x64 x8 Facts₀.broadcasts_S1x64_S4000x64) := by
  simp only [shapeCast_self]

/-- THE PREDICTION AT ROW p, OUTPUT o of a block, over the block's updated node state. -/
theorem out_apply (x0 : Vec Ideal S4000x128 .f32) (x3 : Vec Ideal S128x128 .f32) (x1 : Vec Ideal S4000x1 .f32)
    (x4 : Vec Ideal S1x128 .f32) (x2 : Vec Ideal S4000x128 .f32) (x5 : Vec Ideal S128x128 .f32) (x6 : Vec Ideal S1x128 .f32)
    (x7 : Vec Ideal S128x64 .f32) (x8 : Vec Ideal S1x64 .f32) (p : Fin 4000) (o : Fin 64) :
    k0_pay1 (k0_pay3 x0 x3 x1 x4 x2 x5 x6 x7) x8 (ix2 p o)
      = (∑ k : Fin 128, k0_pay2 x0 x3 x1 x4 x2 x5 x6 (ix2 p k) * x7 (ix2 k o)) + x8 (ix2 (0 : Fin 1) o) := by
  have ht : k0_pay1 (k0_pay3 x0 x3 x1 x4 x2 x5 x6 x7) x8
      = addf (matmul dot_S4000x128_S128x64_S4000x64_1_0_0_1_n_n none (truncf .bf16 (k0_pay2 x0 x3 x1 x4 x2 x5 x6) Facts₀.bitsLt_bf16_f32)
          (truncf .bf16 x7 Facts₀.bitsLt_bf16_f32) (constant (F := Ideal) S4000x64 .f32 0x00000000#32))
        (broadcastTo S4000x64 x8 Facts₀.broadcasts_S1x64_S4000x64) :=
    (show k0_pay1 (k0_pay3 x0 x3 x1 x4 x2 x5 x6 x7) x8 = _ from rfl).trans (head_tree (k0_pay2 x0 x3 x1 x4 x2 x5 x6) x7 x8)
  rw [ht]
  have e1 := Cert.DotRead.matmul_zero_apply dot_S4000x128_S128x64_S4000x64_1_0_0_1_n_n plain_head none
    (truncf .bf16 (k0_pay2 x0 x3 x1 x4 x2 x5 x6) Facts₀.bitsLt_bf16_f32) (truncf .bf16 x7 Facts₀.bitsLt_bf16_f32) p o
  have e2 := bcast_row x8 Facts₀.broadcasts_S1x64_S4000x64 p o
  exact congrArg₂ (· + ·) e1 e2

end Cert.KernelIdeal.Body

end
-- ==== Proof.KernelBlocks.lean ====
/-
  From blocks to arrays: each result array of the call as one function of the operand arrays.

  The call runs its body at 25 points. Point t works on node rows 4000 t … 4000 t + 3999: it is handed those rows of
  the three per-node operands (summed source features, in-degree column, own inputs) and the whole of the six
  parameter operands, and writes back those rows of the two results. Since the body's value at row p of a block uses
  only row p of the per-node blocks, what point t writes back is rows 4000 t … of ONE function of the operand arrays,
  and the 25 row ranges fill the 100000 rows: the result arrays are that function everywhere.
-/
import proofs.«134812_j43361989821071_2_alg».proof.Proof.Gen.KernelIdeal.Value
import proofs.«134812_j43361989821071_2_alg».proof.Proof.KernelBody

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The updated node state as a function of whole operand arrays: A the summed source features, D the in-degree
    column, U the own inputs, W and P the two weight matrices (input-major), b and c the two bias rows. -/
def hidOf (A : S100000x128.Idx → EReal) (D : S100000x1.Idx → EReal) (U : S100000x128.Idx → EReal)
    (W : S128x128.Idx → EReal) (b : S1x128.Idx → EReal) (P : S128x128.Idx → EReal) (cc : S1x128.Idx → EReal) :
    S100000x128.Idx → EReal := fun a =>
  max (((∑ j : Fin 128, A (ix2 (a 0) j) * W (ix2 j (a 1))) + D (ix2 (a 0) (0 : Fin 1)) * b (ix2 (0 : Fin 1) (a 1)))
    + ((∑ j : Fin 128, U (ix2 (a 0) j) * P (ix2 j (a 1))) + cc (ix2 (0 : Fin 1) (a 1)))) (0 : EReal)

/-- The predictions as a function of a whole node-state array H, the head's weights Q (input-major) and bias row r. -/
def outOf (H : S100000x128.Idx → EReal) (Q : S128x64.Idx → EReal) (r : S1x64.Idx → EReal) : S100000x64.Idx → EReal := fun a =>
  (∑ k : Fin 128, H (ix2 (a 0) k) * Q (ix2 k (a 1))) + r (ix2 (0 : Fin 1) (a 1))

theorem hz : (![0, 0] : Fin 2 → Nat) = fun _ => 0 := funext fun a => by fin_cases a <;> rfl

/-- The printed index maps, decided over the 25 points: the per-node windows are at block row t, the parameter
    windows at block (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0
    ∧ win0_10.index t (0 : Fin 2) = t.val
    ∧ win0_10.index t (1 : Fin 2) = 0 :=
  (by decide +kernel : ∀ t : Fin grid0.N, _)

/-! ## A block read off an array, at coordinates

The array is a variable here: what the call finds in an operand is a long term of the arguments, and nothing below
depends on it. -/

/-- Window 0's block at point t is rows 4000 t … 4000 t + 3999 of its array. -/
theorem blk0_read (A : S100000x128.Idx → EReal) (t : Fin cfg0.N) (p : Fin 4000) (j : Fin 128) (r : Fin 100000) (hr : r.val = 4000 * t.val + p.val) :
    (((cfg0.win 0).blk t).view.read (Elt Ideal) A : Vec Ideal S4000x128 .f32) (ix2 p j) = A (ix2 r j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show A (((cfg0.win 0).blk t).view.emb (ix2 p j)) = _
  refine congrArg A (funext fun a => Fin.ext ?_)
  match a with
  | ⟨0, _⟩ => show win0_0.index t (0 : Fin 2) * 4000 + 1 * p.val = r.val; rw [e0_0, hr]; omega
  | ⟨1, _⟩ => show win0_0.index t (1 : Fin 2) * 128 + 1 * j.val = j.val; rw [e0_1]; omega

/-- Window 1's block at point t is rows 4000 t … 4000 t + 3999 of its array. -/
theorem blk1_read (A : S100000x1.Idx → EReal) (t : Fin cfg0.N) (p : Fin 4000) (j : Fin 1) (r : Fin 100000) (hr : r.val = 4000 * t.val + p.val) :
    (((cfg0.win 1).blk t).view.read (Elt Ideal) A : Vec Ideal S4000x1 .f32) (ix2 p j) = A (ix2 r j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show A (((cfg0.win 1).blk t).view.emb (ix2 p j)) = _
  refine congrArg A (funext fun a => Fin.ext ?_)
  match a with
  | ⟨0, _⟩ => show win0_1.index t (0 : Fin 2) * 4000 + 1 * p.val = r.val; rw [e1_0, hr]; omega
  | ⟨1, _⟩ => show win0_1.index t (1 : Fin 2) * 1 + 1 * j.val = j.val; rw [e1_1]; omega

/-- Window 2's block at point t is rows 4000 t … 4000 t + 3999 of its array. -/
theorem blk2_read (A : S100000x128.Idx → EReal) (t : Fin cfg0.N) (p : Fin 4000) (j : Fin 128) (r : Fin 100000) (hr : r.val = 4000 * t.val + p.val) :
    (((cfg0.win 2).blk t).view.read (Elt Ideal) A : Vec Ideal S4000x128 .f32) (ix2 p j) = A (ix2 r j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show A (((cfg0.win 2).blk t).view.emb (ix2 p j)) = _
  refine congrArg A (funext fun a => Fin.ext ?_)
  match a with
  | ⟨0, _⟩ => show win0_2.index t (0 : Fin 2) * 4000 + 1 * p.val = r.val; rw [e2_0, hr]; omega
  | ⟨1, _⟩ => show win0_2.index t (1 : Fin 2) * 128 + 1 * j.val = j.val; rw [e2_1]; omega

/-- Window 3's block is its whole array at every point. -/
theorem blk3_read (A : S128x128.Idx → EReal) (t : Fin cfg0.N) (p : Fin 128) (j : Fin 128) :
    (((cfg0.win 3).blk t).view.read (Elt Ideal) A : Vec Ideal S128x128 .f32) (ix2 p j) = A (ix2 p j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show A (((cfg0.win 3).blk t).view.emb (ix2 p j)) = _
  refine congrArg A (funext fun a => Fin.ext ?_)
  match a with
  | ⟨0, _⟩ => show win0_3.index t (0 : Fin 2) * 128 + 1 * p.val = p.val; rw [e3_0]; omega
  | ⟨1, _⟩ => show win0_3.index t (1 : Fin 2) * 128 + 1 * j.val = j.val; rw [e3_1]; omega

/-- Window 4's block is its whole array at every point. -/
theorem blk4_read (A : S1x128.Idx → EReal) (t : Fin cfg0.N) (p : Fin 1) (j : Fin 128) :
    (((cfg0.win 4).blk t).view.read (Elt Ideal) A : Vec Ideal S1x128 .f32) (ix2 p j) = A (ix2 p j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show A (((cfg0.win 4).blk t).view.emb (ix2 p j)) = _
  refine congrArg A (funext fun a => Fin.ext ?_)
  match a with
  | ⟨0, _⟩ => show win0_4.index t (0 : Fin 2) * 1 + 1 * p.val = p.val; rw [e4_0]; omega
  | ⟨1, _⟩ => show win0_4.index t (1 : Fin 2) * 128 + 1 * j.val = j.val; rw [e4_1]; omega

/-- Window 5's block is its whole array at every point. -/
theorem blk5_read (A : S128x128.Idx → EReal) (t : Fin cfg0.N) (p : Fin 128) (j : Fin 128) :
    (((cfg0.win 5).blk t).view.read (Elt Ideal) A : Vec Ideal S128x128 .f32) (ix2 p j) = A (ix2 p j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show A (((cfg0.win 5).blk t).view.emb (ix2 p j)) = _
  refine congrArg A (funext fun a => Fin.ext ?_)
  match a with
  | ⟨0, _⟩ => show win0_5.index t (0 : Fin 2) * 128 + 1 * p.val = p.val; rw [e5_0]; omega
  | ⟨1, _⟩ => show win0_5.index t (1 : Fin 2) * 128 + 1 * j.val = j.val; rw [e5_1]; omega

/-- Window 6's block is its whole array at every point. -/
theorem blk6_read (A : S1x128.Idx → EReal) (t : Fin cfg0.N) (p : Fin 1) (j : Fin 128) :
    (((cfg0.win 6).blk t).view.read (Elt Ideal) A : Vec Ideal S1x128 .f32) (ix2 p j) = A (ix2 p j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show A (((cfg0.win 6).blk t).view.emb (ix2 p j)) = _
  refine congrArg A (funext fun a => Fin.ext ?_)
  match a with
  | ⟨0, _⟩ => show win0_6.index t (0 : Fin 2) * 1 + 1 * p.val = p.val; rw [e6_0]; omega
  | ⟨1, _⟩ => show win0_6.index t (1 : Fin 2) * 128 + 1 * j.val = j.val; rw [e6_1]; omega

/-- Window 7's block is its whole array at every point. -/
theorem blk7_read (A : S128x64.Idx → EReal) (t : Fin cfg0.N) (p : Fin 128) (j : Fin 64) :
    (((cfg0.win 7).blk t).view.read (Elt Ideal) A : Vec Ideal S128x64 .f32) (ix2 p j) = A (ix2 p j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show A (((cfg0.win 7).blk t).view.emb (ix2 p j)) = _
  refine congrArg A (funext fun a => Fin.ext ?_)
  match a with
  | ⟨0, _⟩ => show win0_7.index t (0 : Fin 2) * 128 + 1 * p.val = p.val; rw [e7_0]; omega
  | ⟨1, _⟩ => show win0_7.index t (1 : Fin 2) * 64 + 1 * j.val = j.val; rw [e7_1]; omega

/-- Window 8's block is its whole array at every point. -/
theorem blk8_read (A : S1x64.Idx → EReal) (t : Fin cfg0.N) (p : Fin 1) (j : Fin 64) :
    (((cfg0.win 8).blk t).view.read (Elt Ideal) A : Vec Ideal S1x64 .f32) (ix2 p j) = A (ix2 p j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show A (((cfg0.win 8).blk t).view.emb (ix2 p j)) = _
  refine congrArg A (funext fun a => Fin.ext ?_)
  match a with
  | ⟨0, _⟩ => show win0_8.index t (0 : Fin 2) * 1 + 1 * p.val = p.val; rw [e8_0]; omega
  | ⟨1, _⟩ => show win0_8.index t (1 : Fin 2) * 64 + 1 * j.val = j.val; rw [e8_1]; omega

/-- THE NODE STATE OF A BLOCK IS ROWS OF ONE FUNCTION: the body's value at row p, feature q of point t's blocks is
    `hidOf` of the operand arrays at node 4000 t + p, feature q. -/
theorem hid_block (A0 : S100000x128.Idx → EReal) (A1 : S100000x1.Idx → EReal) (A2 : S100000x128.Idx → EReal) (A3 : S128x128.Idx → EReal) (A4 : S1x128.Idx → EReal) (A5 : S128x128.Idx → EReal) (A6 : S1x128.Idx → EReal)
    (t : Fin cfg0.N) (p : Fin 4000) (q : Fin 128) (r : Fin 100000) (hr : r.val = 4000 * t.val + p.val) :
    k0_pay2 (((cfg0.win 0).blk t).view.read (Elt Ideal) A0 : Vec Ideal S4000x128 .f32)
        (((cfg0.win 3).blk t).view.read (Elt Ideal) A3 : Vec Ideal S128x128 .f32)
        (((cfg0.win 1).blk t).view.read (Elt Ideal) A1 : Vec Ideal S4000x1 .f32)
        (((cfg0.win 4).blk t).view.read (Elt Ideal) A4 : Vec Ideal S1x128 .f32)
        (((cfg0.win 2).blk t).view.read (Elt Ideal) A2 : Vec Ideal S4000x128 .f32)
        (((cfg0.win 5).blk t).view.read (Elt Ideal) A5 : Vec Ideal S128x128 .f32)
        (((cfg0.win 6).blk t).view.read (Elt Ideal) A6 : Vec Ideal S1x128 .f32) (ix2 p q)
      = hidOf A0 A1 A2 A3 A4 A5 A6 (ix2 r q) := by
  refine (Body.hid_apply _ _ _ _ _ _ _ p q).trans ?_
  show _ = max (((∑ j : Fin 128, A0 (ix2 r j) * A3 (ix2 j q)) + A1 (ix2 r (0 : Fin 1)) * A4 (ix2 (0 : Fin 1) q))
    + ((∑ j : Fin 128, A2 (ix2 r j) * A5 (ix2 j q)) + A6 (ix2 (0 : Fin 1) q))) (0 : EReal)
  exact congrArg (max · (0 : EReal)) (congrArg₂ (· + ·)
    (congrArg₂ (· + ·)
      (Finset.sum_congr rfl fun j _ => congrArg₂ (· * ·) (blk0_read A0 t p j r hr) (blk3_read A3 t j q))
      (congrArg₂ (· * ·) (blk1_read A1 t p 0 r hr) (blk4_read A4 t 0 q)))
    (congrArg₂ (· + ·)
      (Finset.sum_congr rfl fun j _ => congrArg₂ (· * ·) (blk2_read A2 t p j r hr) (blk5_read A5 t j q))
      (blk6_read A6 t 0 q)))

/-- THE PREDICTIONS OF A BLOCK ARE ROWS OF ONE FUNCTION. -/
theorem out_block (A0 : S100000x128.Idx → EReal) (A1 : S100000x1.Idx → EReal) (A2 : S100000x128.Idx → EReal) (A3 : S128x128.Idx → EReal) (A4 : S1x128.Idx → EReal) (A5 : S128x128.Idx → EReal) (A6 : S1x128.Idx → EReal) (A7 : S128x64.Idx → EReal) (A8 : S1x64.Idx → EReal)
    (t : Fin cfg0.N) (p : Fin 4000) (o : Fin 64) (r : Fin 100000) (hr : r.val = 4000 * t.val + p.val) :
    k0_pay1 (k0_pay3 (((cfg0.win 0).blk t).view.read (Elt Ideal) A0 : Vec Ideal S4000x128 .f32)
        (((cfg0.win 3).blk t).view.read (Elt Ideal) A3 : Vec Ideal S128x128 .f32)
        (((cfg0.win 1).blk t).view.read (Elt Ideal) A1 : Vec Ideal S4000x1 .f32)
        (((cfg0.win 4).blk t).view.read (Elt Ideal) A4 : Vec Ideal S1x128 .f32)
        (((cfg0.win 2).blk t).view.read (Elt Ideal) A2 : Vec Ideal S4000x128 .f32)
        (((cfg0.win 5).blk t).view.read (Elt Ideal) A5 : Vec Ideal S128x128 .f32)
        (((cfg0.win 6).blk t).view.read (Elt Ideal) A6 : Vec Ideal S1x128 .f32)
        (((cfg0.win 7).blk t).view.read (Elt Ideal) A7 : Vec Ideal S128x64 .f32)) (((cfg0.win 8).blk t).view.read (Elt Ideal) A8 : Vec Ideal S1x64 .f32) (ix2 p o)
      = outOf (hidOf A0 A1 A2 A3 A4 A5 A6) A7 A8 (ix2 r o) := by
  refine (Body.out_apply _ _ _ _ _ _ _ _ _ p o).trans ?_
  show _ = (∑ k : Fin 128, hidOf A0 A1 A2 A3 A4 A5 A6 (ix2 r k) * A7 (ix2 k o)) + A8 (ix2 (0 : Fin 1) o)
  exact congrArg₂ (· + ·)
    (Finset.sum_congr rfl fun k _ => congrArg₂ (· * ·) (hid_block A0 A1 A2 A3 A4 A5 A6 t p k r hr) (blk7_read A7 t k o))
    (blk8_read A8 t 0 o)

/-- The array row under row p of point t's block. -/
def rowOf (t : Fin cfg0.N) (p : Fin 4000) : Fin 100000 :=
  ⟨4000 * t.val + p.val, by
    have ht : t.val < cfg0.N := t.isLt
    have hN : cfg0.N = 25 := N_0
    have hp : p.val < 4000 := p.isLt
    omega⟩

/-- What point t leaves for the node-state result, read through its block, is block t of `hidOf` of the arrays. -/
theorem hid_flush (A0 : S100000x128.Idx → EReal) (A1 : S100000x1.Idx → EReal) (A2 : S100000x128.Idx → EReal) (A3 : S128x128.Idx → EReal) (A4 : S1x128.Idx → EReal) (A5 : S128x128.Idx → EReal) (A6 : S1x128.Idx → EReal) (t : Fin cfg0.N) :
    (cfg0.win 9).cut (grid0.coords t) (k0_pay2 (((cfg0.win 0).blk t).view.read (Elt Ideal) A0 : Vec Ideal S4000x128 .f32)
        (((cfg0.win 3).blk t).view.read (Elt Ideal) A3 : Vec Ideal S128x128 .f32)
        (((cfg0.win 1).blk t).view.read (Elt Ideal) A1 : Vec Ideal S4000x1 .f32)
        (((cfg0.win 4).blk t).view.read (Elt Ideal) A4 : Vec Ideal S1x128 .f32)
        (((cfg0.win 2).blk t).view.read (Elt Ideal) A2 : Vec Ideal S4000x128 .f32)
        (((cfg0.win 5).blk t).view.read (Elt Ideal) A5 : Vec Ideal S128x128 .f32)
        (((cfg0.win 6).blk t).view.read (Elt Ideal) A6 : Vec Ideal S1x128 .f32))
      = ((cfg0.win 9).blk t).view.read (Elt Ideal) (hidOf A0 A1 A2 A3 A4 A5 A6) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext y
  have hy0 : (y 0).val < 4000 := (y 0).isLt
  have hy1 : (y 1).val < 128 := (y 1).isLt
  have hy : y = ix2 (⟨(y 0).val, hy0⟩ : Fin 4000) (⟨(y 1).val, hy1⟩ : Fin 128) :=
    funext fun a => by match a with | ⟨0, _⟩ => rfl | ⟨1, _⟩ => rfl
  have hE : ((cfg0.win 9).blk t).view.emb y = ix2 (rowOf t ⟨(y 0).val, hy0⟩) (⟨(y 1).val, hy1⟩ : Fin 128) := by
    funext a; apply Fin.ext
    match a with
    | ⟨0, _⟩ => show win0_9.index t (0 : Fin 2) * 4000 + 1 * (y 0).val = 4000 * t.val + (y 0).val; rw [e9_0]; omega
    | ⟨1, _⟩ => show win0_9.index t (1 : Fin 2) * 128 + 1 * (y 1).val = (y 1).val; rw [e9_1]; omega
  show k0_pay2 (((cfg0.win 0).blk t).view.read (Elt Ideal) A0 : Vec Ideal S4000x128 .f32)
        (((cfg0.win 3).blk t).view.read (Elt Ideal) A3 : Vec Ideal S128x128 .f32)
        (((cfg0.win 1).blk t).view.read (Elt Ideal) A1 : Vec Ideal S4000x1 .f32)
        (((cfg0.win 4).blk t).view.read (Elt Ideal) A4 : Vec Ideal S1x128 .f32)
        (((cfg0.win 2).blk t).view.read (Elt Ideal) A2 : Vec Ideal S4000x128 .f32)
        (((cfg0.win 5).blk t).view.read (Elt Ideal) A5 : Vec Ideal S128x128 .f32)
        (((cfg0.win 6).blk t).view.read (Elt Ideal) A6 : Vec Ideal S1x128 .f32) y
    = hidOf A0 A1 A2 A3 A4 A5 A6 (((cfg0.win 9).blk t).view.emb y)
  rw [hE]
  exact (congrArg _ hy).trans (hid_block A0 A1 A2 A3 A4 A5 A6 t ⟨(y 0).val, hy0⟩ ⟨(y 1).val, hy1⟩ (rowOf t ⟨(y 0).val, hy0⟩) rfl)

/-- What point t leaves for the prediction result, read through its block, is block t of `outOf` of the arrays. -/
theorem out_flush (A0 : S100000x128.Idx → EReal) (A1 : S100000x1.Idx → EReal) (A2 : S100000x128.Idx → EReal) (A3 : S128x128.Idx → EReal) (A4 : S1x128.Idx → EReal) (A5 : S128x128.Idx → EReal) (A6 : S1x128.Idx → EReal) (A7 : S128x64.Idx → EReal) (A8 : S1x64.Idx → EReal) (t : Fin cfg0.N) :
    (cfg0.win 10).cut (grid0.coords t) (k0_pay1 (k0_pay3 (((cfg0.win 0).blk t).view.read (Elt Ideal) A0 : Vec Ideal S4000x128 .f32)
        (((cfg0.win 3).blk t).view.read (Elt Ideal) A3 : Vec Ideal S128x128 .f32)
        (((cfg0.win 1).blk t).view.read (Elt Ideal) A1 : Vec Ideal S4000x1 .f32)
        (((cfg0.win 4).blk t).view.read (Elt Ideal) A4 : Vec Ideal S1x128 .f32)
        (((cfg0.win 2).blk t).view.read (Elt Ideal) A2 : Vec Ideal S4000x128 .f32)
        (((cfg0.win 5).blk t).view.read (Elt Ideal) A5 : Vec Ideal S128x128 .f32)
        (((cfg0.win 6).blk t).view.read (Elt Ideal) A6 : Vec Ideal S1x128 .f32)
        (((cfg0.win 7).blk t).view.read (Elt Ideal) A7 : Vec Ideal S128x64 .f32)) (((cfg0.win 8).blk t).view.read (Elt Ideal) A8 : Vec Ideal S1x64 .f32))
      = ((cfg0.win 10).blk t).view.read (Elt Ideal) (outOf (hidOf A0 A1 A2 A3 A4 A5 A6) A7 A8) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext y
  have hy0 : (y 0).val < 4000 := (y 0).isLt
  have hy1 : (y 1).val < 64 := (y 1).isLt
  have hy : y = ix2 (⟨(y 0).val, hy0⟩ : Fin 4000) (⟨(y 1).val, hy1⟩ : Fin 64) :=
    funext fun a => by match a with | ⟨0, _⟩ => rfl | ⟨1, _⟩ => rfl
  have hE : ((cfg0.win 10).blk t).view.emb y = ix2 (rowOf t ⟨(y 0).val, hy0⟩) (⟨(y 1).val, hy1⟩ : Fin 64) := by
    funext a; apply Fin.ext
    match a with
    | ⟨0, _⟩ => show win0_10.index t (0 : Fin 2) * 4000 + 1 * (y 0).val = 4000 * t.val + (y 0).val; rw [e10_0]; omega
    | ⟨1, _⟩ => show win0_10.index t (1 : Fin 2) * 64 + 1 * (y 1).val = (y 1).val; rw [e10_1]; omega
  show k0_pay1 (k0_pay3 (((cfg0.win 0).blk t).view.read (Elt Ideal) A0 : Vec Ideal S4000x128 .f32)
        (((cfg0.win 3).blk t).view.read (Elt Ideal) A3 : Vec Ideal S128x128 .f32)
        (((cfg0.win 1).blk t).view.read (Elt Ideal) A1 : Vec Ideal S4000x1 .f32)
        (((cfg0.win 4).blk t).view.read (Elt Ideal) A4 : Vec Ideal S1x128 .f32)
        (((cfg0.win 2).blk t).view.read (Elt Ideal) A2 : Vec Ideal S4000x128 .f32)
        (((cfg0.win 5).blk t).view.read (Elt Ideal) A5 : Vec Ideal S128x128 .f32)
        (((cfg0.win 6).blk t).view.read (Elt Ideal) A6 : Vec Ideal S1x128 .f32)
        (((cfg0.win 7).blk t).view.read (Elt Ideal) A7 : Vec Ideal S128x64 .f32)) (((cfg0.win 8).blk t).view.read (Elt Ideal) A8 : Vec Ideal S1x64 .f32) y
    = outOf (hidOf A0 A1 A2 A3 A4 A5 A6) A7 A8 (((cfg0.win 10).blk t).view.emb y)
  rw [hE]
  exact (congrArg _ hy).trans (out_block A0 A1 A2 A3 A4 A5 A6 A7 A8 t ⟨(y 0).val, hy0⟩ ⟨(y 1).val, hy1⟩ (rowOf t ⟨(y 0).val, hy0⟩) rfl)

/-- An index of the node-state array is in point t's block iff each coordinate is in the block's range on its axis. -/
theorem mem_blk9 (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v25_0).slice (win0_9.rect t)).set ↔ _
  rw [View.set_slice_whole, Rect.mem_set_unit]
  exact Iff.rfl

theorem mem_blk10 (t : Fin cfg0.N) (i : S100000x64.Idx) :
    i ∈ ((cfg0.win 10).blk t).view.set ↔ ∀ a : Fin 2, win0_10.index t a * S4000x64.size a ≤ (i a).val ∧ (i a).val < win0_10.index t a * S4000x64.size a + S4000x64.size a := by
  show i ∈ ((View.whole main_v25_1).slice (win0_10.rect t)).set ↔ _
  rw [View.set_slice_whole, Rect.mem_set_unit]
  exact Iff.rfl

/-- The point whose block holds node row n: n / 4000. -/
def pointOf (n : ℕ) (hn : n < 100000) : Fin cfg0.N := ⟨n / 4000, by rw [show cfg0.N = 25 from N_0]; omega⟩

/-- Every index of the node-state array is in the block of the point its row belongs to. -/
theorem cover9 (i : S100000x128.Idx) : ∃ t : Fin cfg0.N, (cfg0.win 9).flush t = true ∧ i ∈ ((cfg0.win 9).blk t).view.set := by
  have h0 : (i 0).val < 100000 := (i 0).isLt
  have h1 : (i 1).val < 128 := (i 1).isLt
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts (pointOf (i 0).val h0)
  have ht : (pointOf (i 0).val h0).val = (i 0).val / 4000 := rfl
  refine ⟨pointOf (i 0).val h0, flush0_9 _, ?_⟩
  rw [mem_blk9]
  intro a
  match a with
  | ⟨0, _⟩ => show win0_9.index (pointOf (i 0).val h0) (0 : Fin 2) * 4000 ≤ (i 0).val ∧ (i 0).val < win0_9.index (pointOf (i 0).val h0) (0 : Fin 2) * 4000 + 4000; rw [e9_0, ht]; omega
  | ⟨1, _⟩ => show win0_9.index (pointOf (i 0).val h0) (1 : Fin 2) * 128 ≤ (i 1).val ∧ (i 1).val < win0_9.index (pointOf (i 0).val h0) (1 : Fin 2) * 128 + 128; rw [e9_1]; omega

theorem cover10 (i : S100000x64.Idx) : ∃ t : Fin cfg0.N, (cfg0.win 10).flush t = true ∧ i ∈ ((cfg0.win 10).blk t).view.set := by
  have h0 : (i 0).val < 100000 := (i 0).isLt
  have h1 : (i 1).val < 64 := (i 1).isLt
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts (pointOf (i 0).val h0)
  have ht : (pointOf (i 0).val h0).val = (i 0).val / 4000 := rfl
  refine ⟨pointOf (i 0).val h0, flush0_10 _, ?_⟩
  rw [mem_blk10]
  intro a
  match a with
  | ⟨0, _⟩ => show win0_10.index (pointOf (i 0).val h0) (0 : Fin 2) * 4000 ≤ (i 0).val ∧ (i 0).val < win0_10.index (pointOf (i 0).val h0) (0 : Fin 2) * 4000 + 4000; rw [e10_0, ht]; omega
  | ⟨1, _⟩ => show win0_10.index (pointOf (i 0).val h0) (1 : Fin 2) * 64 ≤ (i 1).val ∧ (i 1).val < win0_10.index (pointOf (i 0).val h0) (1 : Fin 2) * 64 + 64; rw [e10_1]; omega

/-! ## The two result arrays after the run -/

variable (m : (ℓ : Loc nD τ sig) → Buf (Elt Ideal) ℓ) (ρ : Dev nD → PrngReg)

/-- WHAT POINT t WRITES BACK to the node-state result is block t of `hidOf` of the operand arrays as the call finds them. -/
theorem flushed9_eq (c : Dev nD) (t : Fin cfg0.N) :
    (dats m 0 c).flushed 9 t = ((cfg0.win 9).blk t).view.read (Elt Ideal) (hidOf (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) (V m c (Pipeline.arrRef spec0 (5 : Fin cfg0.W))) (V m c (Pipeline.arrRef spec0 (6 : Fin cfg0.W)))) := by
  rw [Value.flushed9]
  unfold out0_9
  rw [View.canon_unit_zero hz]
  simp only [View.ld_unit_zero (S := S4000x128) hz, View.ld_unit_zero (S := S128x128) hz, View.ld_unit_zero (S := S4000x1) hz,
    View.ld_unit_zero (S := S1x128) hz]
  unfold iblk
  exact hid_flush (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) (V m c (Pipeline.arrRef spec0 (5 : Fin cfg0.W))) (V m c (Pipeline.arrRef spec0 (6 : Fin cfg0.W))) t

/-- WHAT POINT t WRITES BACK to the prediction result is block t of `outOf` of that node state. -/
theorem flushed10_eq (c : Dev nD) (t : Fin cfg0.N) :
    (dats m 0 c).flushed 10 t = ((cfg0.win 10).blk t).view.read (Elt Ideal)
      (outOf (hidOf (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) (V m c (Pipeline.arrRef spec0 (5 : Fin cfg0.W))) (V m c (Pipeline.arrRef spec0 (6 : Fin cfg0.W)))) (V m c (Pipeline.arrRef spec0 (7 : Fin cfg0.W))) (V m c (Pipeline.arrRef spec0 (8 : Fin cfg0.W)))) := by
  rw [Value.flushed10]
  unfold out0_10
  rw [View.canon_unit_zero hz]
  simp only [View.ld_unit_zero (S := S4000x128) hz, View.ld_unit_zero (S := S128x128) hz, View.ld_unit_zero (S := S4000x1) hz,
    View.ld_unit_zero (S := S1x128) hz, View.ld_unit_zero (S := S128x64) hz, View.ld_unit_zero (S := S1x64) hz]
  unfold iblk
  exact out_flush (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) (V m c (Pipeline.arrRef spec0 (5 : Fin cfg0.W))) (V m c (Pipeline.arrRef spec0 (6 : Fin cfg0.W))) (V m c (Pipeline.arrRef spec0 (7 : Fin cfg0.W))) (V m c (Pipeline.arrRef spec0 (8 : Fin cfg0.W))) t

/-- THE NODE-STATE ARRAY after the run. -/
theorem final9 (c : Dev nD) : (dats m 0 c).arrAt 9 cfg0.N = hidOf (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) (V m c (Pipeline.arrRef spec0 (5 : Fin cfg0.W))) (V m c (Pipeline.arrRef spec0 (6 : Fin cfg0.W))) :=
  (dats m 0 c).arrAt_eq_of_cover 9 (hidOf (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) (V m c (Pipeline.arrRef spec0 (5 : Fin cfg0.W))) (V m c (Pipeline.arrRef spec0 (6 : Fin cfg0.W)))) (fun t _ => flushed9_eq m c t) cover9

/-- THE PREDICTION ARRAY after the run. -/
theorem final10 (c : Dev nD) : (dats m 0 c).arrAt 10 cfg0.N = outOf (hidOf (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) (V m c (Pipeline.arrRef spec0 (5 : Fin cfg0.W))) (V m c (Pipeline.arrRef spec0 (6 : Fin cfg0.W)))) (V m c (Pipeline.arrRef spec0 (7 : Fin cfg0.W))) (V m c (Pipeline.arrRef spec0 (8 : Fin cfg0.W))) :=
  (dats m 0 c).arrAt_eq_of_cover 10 (outOf (hidOf (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) (V m c (Pipeline.arrRef spec0 (5 : Fin cfg0.W))) (V m c (Pipeline.arrRef spec0 (6 : Fin cfg0.W)))) (V m c (Pipeline.arrRef spec0 (7 : Fin cfg0.W))) (V m c (Pipeline.arrRef spec0 (8 : Fin cfg0.W)))) (fun t _ => flushed10_eq m c t) cover10

end Cert.KernelIdeal.Blocks

end
-- ==== Proof.LibGatherRows.lean ====
/-
  A host gather of whole rows, read at an index.

  The operand is a matrix [N, B]; the start indices are a column [M, 1] of signed integers, one per result row; the
  result is the matrix [M, B] whose row k is the operand's row at the start index of k. A gather clamps every start
  index so that the slice fits inside the operand: the row that is read is the start index taken as a signed integer,
  negative values becoming 0 and values past the last row becoming N - 1. The lane coordinate passes through.
-/
import Idealize.ShloMosaic.PureOps
import Idealize.ShloMosaic.Lib.ValueIdx

noncomputable section

namespace Cert.GatherRows

open Idealize.ShloMosaic Idealize.ShloMosaic.ValueIdx

variable {α : Type}

/-- The dimension numbers of `x[idx]` on a matrix `[N, B]` at `M` row indices stored as a column `[M, 1]`: the row
    axis is collapsed and indexed, the lane axis is the slice. -/
abbrev rowGather (N M B : ℕ)
    (wf : GatherDims.WF ⟨2, ![N, B]⟩ ⟨2, ![M, 1]⟩ ⟨2, ![M, B]⟩ [1] [0] [] [0] [] 1 ![1, B]) :
    GatherDims ⟨2, ![N, B]⟩ ⟨2, ![M, 1]⟩ ⟨2, ![M, B]⟩ where
  offsetDims := [1]
  collapsedSliceDims := [0]
  operandBatchingDims := []
  startIndicesBatchingDims := []
  startIndexMap := [0]
  indexVectorDim := 1
  sliceSizes := ![1, B]
  wf := wf

/-- The operand row that result row `k` reads: its start index as a signed integer, clamped into `[0, N - 1]`. -/
def row {N M w : ℕ} (hN : 0 < N) (idx : IVec ⟨2, ![M, 1]⟩ w) (k : Fin M) : Fin N :=
  ⟨min (idx (ix2 k (0 : Fin 1))).toInt.toNat (N - 1), by omega⟩

/-- A start index that already names a row `r` of the operand is not moved by the clamp. -/
theorem row_of_toInt {N M w : ℕ} (hN : 0 < N) (idx : IVec ⟨2, ![M, 1]⟩ w) (k : Fin M) (r : Fin N)
    (h : (idx (ix2 k (0 : Fin 1))).toInt = (r.val : ℤ)) : row hN idx k = r := by
  refine Fin.ext ?_
  show min (idx (ix2 k (0 : Fin 1))).toInt.toNat (N - 1) = r.val
  rw [h]
  have := r.isLt
  simp only [Int.toNat_natCast]
  omega

/-- THE ROW GATHER READ AT `(k, q)`: the operand at the clamped row of `k`, lane `q`. -/
theorem gather_rows_apply {N M B w : ℕ} (hN : 0 < N) (wf) (x : (⟨2, ![N, B]⟩ : Shape).Idx → α)
    (idx : IVec ⟨2, ![M, 1]⟩ w) (k : Fin M) (q : Fin B) :
    Host.gather (rowGather N M B wf) x idx (ix2 k q) = x (ix2 (row hN idx k) q) := by
  unfold Host.gather
  congr 1
  funext a
  refine Fin.ext ?_
  match a with
  | ⟨0, _⟩ =>
    show (rowGather N M B wf).start (ix2 k q) idx 0 + (rowGather N M B wf).batchCoord (ix2 k q) 0
      + (rowGather N M B wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M B wf).startIndexMap from List.mem_singleton.mpr rfl)]
    have hsi : (rowGather N M B wf).siIdx (ix2 k q) ⟨List.idxOf (0 : Fin 2) (rowGather N M B wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowGather N M B wf).start (ix2 k q) idx 1 + (rowGather N M B wf).batchCoord (ix2 k q) 1
      + (rowGather N M B wf).offCoord (ix2 k q) 1 = q.val
    rw [GatherDims.batchCoord_eq_zero _ _ _ List.not_mem_nil]
    unfold GatherDims.start
    rw [dif_neg (show ¬ (1 : Fin 2) ∈ (rowGather N M B wf).startIndexMap by
      show ¬ (1 : Fin 2) ∈ ([0] : List (Fin 2)); decide)]
    unfold GatherDims.offCoord
    rw [dif_pos (show (1 : Fin 2) ∈ (rowGather N M B wf).sKept by
      rw [GatherDims.mem_sKept]; exact ⟨by show ¬ (1 : Fin 2) ∈ ([0] : List (Fin 2)); decide, List.not_mem_nil⟩)]
    simp only [Nat.zero_add]
    rfl

end Cert.GatherRows

end
-- ==== Proof.LibScatterRead.lean ====
/-
  A host scatter that overwrites with one constant, read at an index.

  The host scatter is a left fold over the update positions in row-major order: each position whose result index
  lies inside the operand replaces the operand's element there, and a position whose result index falls outside is
  dropped. When the combining function keeps the update and every update element is the same constant c, the order
  of the fold and repeated hits do not matter: the result at an index i is c if SOME update position lands on i, and
  the operand's element at i otherwise.

  Two index layouts are read here, both with one start index per update row, stored as a column [M, 1] of signed
  integers, and both scattering along the operand's leading axis: a vector [N] receiving scalars, and a matrix [N, B]
  receiving whole rows of B elements. In both, update row k lands on operand row r exactly when the signed start
  index of k equals r; so the set of rows that are hit is the same for the two layouts.
-/
import Idealize.ShloMosaic.PureOps
import Idealize.ShloMosaic.Lib.ValueIdx

noncomputable section

namespace Cert.ScatterRead

open Idealize.ShloMosaic Idealize.ShloMosaic.ValueIdx
open scoped Classical

variable {α : Type}

/-! ## The fold -/

/-- A left fold of steps, each of which either overwrites ONE index (the one `g n` names) with the constant `c` or
    does nothing, read at `i`: `c` if some step of the list names `i`, the initial function's value otherwise. -/
theorem foldl_overwrite {ι β : Type} (g : ι → Option β) (c : α) (step : (β → α) → ι → (β → α))
    (hstep : ∀ r n i, step r n i = if g n = some i then c else r i) (L : List ι) (x : β → α) (i : β) :
    (L.foldl step x) i = if ∃ n ∈ L, g n = some i then c else x i := by
  induction L generalizing x with
  | nil => simp
  | cons n L ih =>
    rw [List.foldl_cons, ih, hstep]
    by_cases h1 : ∃ n' ∈ L, g n' = some i
    · rw [if_pos h1, if_pos]
      obtain ⟨n', hn', e⟩ := h1
      exact ⟨n', List.mem_cons_of_mem _ hn', e⟩
    · rw [if_neg h1]
      by_cases h2 : g n = some i
      · rw [if_pos h2, if_pos]
        exact ⟨n, List.mem_cons_self, h2⟩
      · rw [if_neg h2, if_neg]
        rintro ⟨n', hn', e⟩
        rcases List.mem_cons.mp hn' with rfl | hn'
        · exact h2 e
        · exact h1 ⟨n', hn', e⟩

/-- THE SCATTER OF ONE CONSTANT READ AT AN INDEX: with the update kept and every update element `c`, the result at
    `i` is `c` where some update position's result index is `i`, and the operand's element elsewhere. -/
theorem scatter_const_apply {s si u : Shape} {w : ℕ} (d : ScatterDims s si u) (x : s.Idx → α) (idx : IVec si w)
    (upd : u.Idx → α) (c : α) (hupd : ∀ j, upd j = c) (i : s.Idx) :
    Host.scatter d (fun _ b => b) x idx upd i = if ∃ j : u.Idx, d.resultIdx? j idx = some i then c else x i := by
  unfold Host.scatter
  refine (foldl_overwrite (fun n => d.resultIdx? (u.rowMajor.symm n) idx) c _ ?_ _ x i).trans ?_
  · intro r n i'
    dsimp only
    cases h : d.resultIdx? (u.rowMajor.symm n) idx with
    | none => simp
    | some i0 =>
      dsimp only
      by_cases hi : i' = i0
      · subst hi; rw [if_pos rfl, if_pos rfl, hupd]
      · rw [if_neg hi, if_neg]
        intro e
        exact hi (Option.some.inj e).symm
  · by_cases h : ∃ j : u.Idx, d.resultIdx? j idx = some i
    · rw [if_pos h, if_pos]
      obtain ⟨j, hj⟩ := h
      exact ⟨u.rowMajor j, List.mem_finRange _, by rw [Equiv.symm_apply_apply]; exact hj⟩
    · rw [if_neg h, if_neg]
      rintro ⟨n, _, e⟩
      exact h ⟨_, e⟩

/-! ## When an update position lands on an index -/

/-- An update position's result index is `i` exactly when, on every axis of the operand, the window's start plus the
    coordinate inside the window is `i`'s coordinate (which, being a coordinate, is inside the operand). -/
theorem resultIdx?_eq_some_iff {s si u : Shape} {w : ℕ} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have e1 := congrArg Fin.val (congrFun (Option.some.inj e) a)
      have := h a
      simp only at e1
      omega
    · intro e
      refine congrArg some (funext fun a => Fin.ext ?_)
      have := e a
      have := h a
      simp only
      omega
  · rename_i h
    constructor
    · intro e; cases e
    · intro e
      exfalso
      apply h
      intro a
      have := e a
      have := (i a).isLt
      omega

/-! ## A column of start indices scattering scalars into a vector -/

/-- The dimension numbers of `x.at[idx].set(v)` on a vector `[N]` with `M` scalar updates, the start indices a
    column `[M, 1]`: no window axis in the updates, the operand's one axis inserted and scattered. -/
abbrev vecDims (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem vecDims_start {N M w : ℕ} (wf) (j : (⟨1, ![M]⟩ : Shape).Idx) (idx : IVec ⟨2, ![M, 1]⟩ w) :
    (vecDims N M wf).start j idx 0 = (idx (ix2 (j 0) (0 : Fin 1))).toInt := by
  unfold ScatterDims.start
  rw [dif_pos (show (0 : Fin 1) ∈ (vecDims N M wf).scatterDimsToOperandDims from List.mem_singleton.mpr rfl)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem vecDims_window {N M : ℕ} (wf) (j : (⟨1, ![M]⟩ : Shape).Idx) : (vecDims N M wf).window j 0 = 0 := by
  unfold ScatterDims.window
  rw [dif_neg (show ¬ (0 : Fin 1) ∈ (vecDims N M wf).sKept by
    show ¬ (0 : Fin 1) ∈ ([] : List (Fin 1)); simp)]

/-- Update `j` lands on element `i` of the vector exactly when its signed start index is `i`. -/
theorem vecDims_lands {N M w : ℕ} (wf) (j : (⟨1, ![M]⟩ : Shape).Idx) (idx : IVec ⟨2, ![M, 1]⟩ w) (i : (⟨1, ![N]⟩ : Shape).Idx) :
    (vecDims N M wf).resultIdx? j idx = some i ↔ (idx (ix2 (j 0) (0 : Fin 1))).toInt = ((i 0).val : ℤ) := by
  rw [resultIdx?_eq_some_iff]
  constructor
  · intro h
    have := h 0
    rw [vecDims_start, vecDims_window] at this
    simpa using this
  · intro h a
    obtain rfl : a = 0 := Subsingleton.elim _ _
    rw [vecDims_start, vecDims_window]
    simpa using h

/-! ## The same column scattering whole rows into a matrix -/

/-- The dimension numbers of `x.at[idx].set(v)` on a matrix `[N, B]` with `M` row updates `[M, B]`, the start
    indices a column `[M, 1]`: the updates' lane axis is the window, the operand's row axis inserted and scattered. -/
abbrev rowDims (N M B : ℕ) (wf : ScatterDims.WF ⟨2, ![N, B]⟩ ⟨2, ![M, 1]⟩ ⟨2, ![M, B]⟩ [1] [0] [0] 1) :
    ScatterDims ⟨2, ![N, B]⟩ ⟨2, ![M, 1]⟩ ⟨2, ![M, B]⟩ where
  updateWindowDims := [1]
  insertedWindowDims := [0]
  scatterDimsToOperandDims := [0]
  indexVectorDim := 1
  wf := wf

theorem rowDims_start0 {N M B w : ℕ} (wf) (j : (⟨2, ![M, B]⟩ : Shape).Idx) (idx : IVec ⟨2, ![M, 1]⟩ w) :
    (rowDims N M B wf).start j idx 0 = (idx (ix2 (j 0) (0 : Fin 1))).toInt := by
  unfold ScatterDims.start
  rw [dif_pos (show (0 : Fin 2) ∈ (rowDims N M B wf).scatterDimsToOperandDims from List.mem_singleton.mpr rfl)]
  have hsi : (rowDims N M B wf).siIdx j ⟨List.idxOf (0 : Fin 2) (rowDims N M B wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowDims_start1 {N M B w : ℕ} (wf) (j : (⟨2, ![M, B]⟩ : Shape).Idx) (idx : IVec ⟨2, ![M, 1]⟩ w) :
    (rowDims N M B wf).start j idx 1 = 0 := by
  unfold ScatterDims.start
  rw [dif_neg (show ¬ (1 : Fin 2) ∈ (rowDims N M B wf).scatterDimsToOperandDims by
    show ¬ (1 : Fin 2) ∈ ([0] : List (Fin 2)); decide)]

theorem rowDims_window0 {N M B : ℕ} (wf) (j : (⟨2, ![M, B]⟩ : Shape).Idx) : (rowDims N M B wf).window j 0 = 0 := by
  unfold ScatterDims.window
  rw [dif_neg (show ¬ (0 : Fin 2) ∈ (rowDims N M B wf).sKept by
    show ¬ (0 : Fin 2) ∈ ([1] : List (Fin 2)); decide)]

theorem rowDims_window1 {N M B : ℕ} (wf) (j : (⟨2, ![M, B]⟩ : Shape).Idx) : (rowDims N M B wf).window j 1 = (j 1).val := by
  unfold ScatterDims.window
  rw [dif_pos (show (1 : Fin 2) ∈ (rowDims N M B wf).sKept by
    show (1 : Fin 2) ∈ ([1] : List (Fin 2)); decide)]
  rfl

/-- Update element `(k, q)` lands on element `(r, q')` of the matrix exactly when the signed start index of row `k`
    is `r` and the lanes agree. -/
theorem rowDims_lands {N M B w : ℕ} (wf) (j : (⟨2, ![M, B]⟩ : Shape).Idx) (idx : IVec ⟨2, ![M, 1]⟩ w) (i : (⟨2, ![N, B]⟩ : Shape).Idx) :
    (rowDims N M B wf).resultIdx? j idx = some i
      ↔ (idx (ix2 (j 0) (0 : Fin 1))).toInt = ((i 0).val : ℤ) ∧ (j 1).val = (i 1).val := by
  rw [resultIdx?_eq_some_iff]
  constructor
  · intro h
    have h0 := h 0
    have h1 := h 1
    rw [rowDims_start0, rowDims_window0] at h0
    rw [rowDims_start1, rowDims_window1] at h1
    exact ⟨by simpa using h0, by simpa using h1⟩
  · rintro ⟨h0, h1⟩ a
    match a with
    | ⟨0, _⟩ =>
      show (rowDims N M B wf).start j idx 0 + ((rowDims N M B wf).window j 0 : ℤ) = ((i 0).val : ℤ)
      rw [rowDims_start0, rowDims_window0]; simpa using h0
    | ⟨1, _⟩ =>
      show (rowDims N M B wf).start j idx 1 + ((rowDims N M B wf).window j 1 : ℤ) = ((i 1).val : ℤ)
      rw [rowDims_start1, rowDims_window1]; simpa using h1

/-! ## The rows that are hit, and the two scatters read by them -/

/-- Row `r` is hit by the column of start indices: some update row's signed start index is `r`. -/
def Hit {M w : ℕ} (idx : IVec ⟨2, ![M, 1]⟩ w) (r : ℕ) : Prop :=
  ∃ k : Fin M, (idx (ix2 k (0 : Fin 1))).toInt = (r : ℤ)

/-- The vector scatter of one constant, at `r`: the constant if row `r` is hit, the operand's element otherwise. -/
theorem scatter_vec_apply {N M w : ℕ} (wf) (x : (⟨1, ![N]⟩ : Shape).Idx → α) (idx : IVec ⟨2, ![M, 1]⟩ w)
    (upd : (⟨1, ![M]⟩ : Shape).Idx → α) (c : α) (hupd : ∀ j, upd j = c) (r : Fin N) :
    Host.scatter (vecDims N M wf) (fun _ b => b) x idx upd (ix1 r) = if Hit idx r.val then c else x (ix1 r) := by
  rw [scatter_const_apply _ _ _ _ c hupd]
  by_cases h : Hit idx r.val
  · rw [if_pos h, if_pos]
    obtain ⟨k, hk⟩ := h
    exact ⟨ix1 k, (vecDims_lands wf _ idx _).mpr hk⟩
  · rw [if_neg h, if_neg]
    rintro ⟨j, hj⟩
    exact h ⟨j 0, (vecDims_lands wf j idx _).mp hj⟩

/-- The row scatter of one constant, at `(r, q)`: the constant if row `r` is hit, the operand's element otherwise. -/
theorem scatter_row_apply {N M B w : ℕ} (wf) (x : (⟨2, ![N, B]⟩ : Shape).Idx → α) (idx : IVec ⟨2, ![M, 1]⟩ w)
    (upd : (⟨2, ![M, B]⟩ : Shape).Idx → α) (c : α) (hupd : ∀ j, upd j = c) (r : Fin N) (q : Fin B) :
    Host.scatter (rowDims N M B wf) (fun _ b => b) x idx upd (ix2 r q) = if Hit idx r.val then c else x (ix2 r q) := by
  rw [scatter_const_apply _ _ _ _ c hupd]
  by_cases h : Hit idx r.val
  · rw [if_pos h, if_pos]
    obtain ⟨k, hk⟩ := h
    exact ⟨ix2 k q, (rowDims_lands wf _ idx _).mpr ⟨hk, rfl⟩⟩
  · rw [if_neg h, if_neg]
    rintro ⟨j, hj⟩
    exact h ⟨j 0, ((rowDims_lands wf j idx _).mp hj).1⟩

end Cert.ScatterRead

end
-- ==== Proof.LibScatterAddRead.lean ====
/-
  A host scatter that ADDS, read at an index, on the extended reals.

  On the extended reals the accumulating scatter has one value whatever the order of the additions: the operand's
  element plus the sum of the update elements whose result index is that element. Two index layouts are read here,
  both with one start index per update row stored as a column [M, 1] of signed integers, both scattering along the
  operand's leading axis: a vector [N] receiving scalars and a matrix [N, B] receiving whole rows. Update row k lands
  on operand row r exactly when the signed start index of k equals r (a start index outside [0, N) lands nowhere and
  is dropped), so in both layouts the sum runs over the SAME set of update rows
      { k : the start index of k is r },
  and for the matrix the lane passes through: element (r, q) receives the elements (k, q) of those rows.
-/
import proofs.«134812_j43361989821071_2_alg».proof.Proof.LibScatterRead
import Idealize.ShloMosaic.PureOps.Ideal

noncomputable section

open scoped BigOperators

namespace Cert.ScatterAddRead

open Idealize.ShloMosaic Idealize.ShloMosaic.ValueIdx Cert.ScatterRead
open scoped Classical

/-- The update rows whose signed start index is `r`. -/
def landing {M w : ℕ} (idx : IVec ⟨2, ![M, 1]⟩ w) (r : ℕ) : Finset (Fin M) :=
  Finset.univ.filter fun k => (idx (ix2 k (0 : Fin 1))).toInt = (r : ℤ)

theorem mem_landing {M w : ℕ} (idx : IVec ⟨2, ![M, 1]⟩ w) (r : ℕ) (k : Fin M) :
    k ∈ landing idx r ↔ (idx (ix2 k (0 : Fin 1))).toInt = (r : ℤ) := by
  unfold landing; rw [Finset.mem_filter]; exact ⟨fun h => h.2, fun h => ⟨Finset.mem_univ _, h⟩⟩

/-- A rank-1 index set is its one coordinate range. -/
def idxEquiv1 {n : ℕ} : (⟨1, ![n]⟩ : Shape).Idx ≃ Fin n where
  toFun i := i 0
  invFun := ix1
  left_inv i := (eq_ix1 i).symm
  right_inv _ := rfl

/-- THE ACCUMULATING VECTOR SCATTER READ AT `r`: the operand's element plus the sum of the updates of the rows that
    land on `r`. -/
theorem scatterAdd_vec_apply {φ : FTy} {N M w : ℕ} (wf) (x : FVec Ideal ⟨1, ![N]⟩ φ) (idx : IVec ⟨2, ![M, 1]⟩ w)
    (upd : FVec Ideal ⟨1, ![M]⟩ φ) (r : Fin N) :
    Host.scatterAdd (vecDims N M wf) x idx upd (ix1 r) = (x (ix1 r) + ∑ k ∈ landing idx r.val, upd (ix1 k) : EReal) := by
  show Ideal.hostScatterAdd (vecDims N M wf) x idx upd (ix1 r) = _
  unfold Ideal.hostScatterAdd landing
  congr 1
  rw [Finset.sum_filter, Finset.sum_filter, ← Equiv.sum_comp (idxEquiv1 (n := M)).symm]
  refine Finset.sum_congr rfl fun k _ => ?_
  show (if (vecDims N M wf).resultIdx? (ix1 k) idx = some (ix1 r) then upd (ix1 k) else 0) = _
  by_cases h : (idx (ix2 k (0 : Fin 1))).toInt = (r.val : ℤ)
  · rw [if_pos h, if_pos ((vecDims_lands wf (ix1 k) idx (ix1 r)).mpr h)]
  · rw [if_neg h, if_neg fun h' => h ((vecDims_lands wf (ix1 k) idx (ix1 r)).mp h')]

/-- THE ACCUMULATING ROW SCATTER READ AT `(r, q)`: the operand's element plus the sum, over the rows that land on
    `r`, of their elements in lane `q`. -/
theorem scatterAdd_row_apply {φ : FTy} {N M B w : ℕ} (wf) (x : FVec Ideal ⟨2, ![N, B]⟩ φ) (idx : IVec ⟨2, ![M, 1]⟩ w)
    (upd : FVec Ideal ⟨2, ![M, B]⟩ φ) (r : Fin N) (q : Fin B) :
    Host.scatterAdd (rowDims N M B wf) x idx upd (ix2 r q)
      = (x (ix2 r q) + ∑ k ∈ landing idx r.val, upd (ix2 k q) : EReal) := by
  show Ideal.hostScatterAdd (rowDims N M B wf) x idx upd (ix2 r q) = _
  unfold Ideal.hostScatterAdd landing
  congr 1
  rw [Finset.sum_filter, sum_idx2, Finset.sum_filter]
  refine Finset.sum_congr rfl fun k _ => ?_
  by_cases h : (idx (ix2 k (0 : Fin 1))).toInt = (r.val : ℤ)
  · rw [if_pos h, Finset.sum_eq_single q]
    · rw [if_pos ((rowDims_lands wf (ix2 k q) idx (ix2 r q)).mpr ⟨h, rfl⟩)]
    · intro b _ hb
      rw [if_neg]
      intro h'
      exact hb (Fin.ext ((rowDims_lands wf (ix2 k b) idx (ix2 r q)).mp h').2)
    · intro hq; exact absurd (Finset.mem_univ q) hq
  · rw [if_neg h]
    refine Finset.sum_eq_zero fun b _ => ?_
    rw [if_neg]
    intro h'
    exact h ((rowDims_lands wf (ix2 k b) idx (ix2 r q)).mp h').1

end Cert.ScatterAddRead

end
-- ==== Proof.LibDotOfSums.lean ====
/-
  The dot product with a sum of vectors is the sum of the dot products, on finite extended reals.

  On the extended reals a product does not distribute over a sum when an infinity is present, so the law is stated for
  families of REAL numbers read as extended reals: for a vector a and a finite family of vectors b e,
      Σ_d a_d · (Σ_e b_{e,d})  =  Σ_e Σ_d b_{e,d} · a_d .
  The proof moves both sides into the reals (a finite sum or a product of reals read as extended reals is the
  extended real of the real sum or product), where it is distributivity, an exchange of the two sums and
  commutativity of the product.
-/
import Mathlib.Data.EReal.Operations
import Mathlib.Algebra.BigOperators.Ring.Finset
import Mathlib.Algebra.BigOperators.Group.Finset.Sigma

noncomputable section

open scoped BigOperators

namespace Cert.DotOfSums

/-- A finite sum of reals read as extended reals is the extended real of the real sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- THE LAW: the dot product of `a` with the sum over `e ∈ E` of the vectors `b e` is the sum over `e ∈ E` of the
    dot products of `b e` with `a`. -/
theorem dot_of_sums {ι κ : Type} [Fintype κ] (E : Finset ι) (a : κ → ℝ) (b : ι → κ → ℝ) :
    ∑ d, (a d : EReal) * ∑ e ∈ E, (b e d : EReal) = ∑ e ∈ E, ∑ d, (b e d : EReal) * (a d : EReal) := by
  have hl : ∀ d, (a d : EReal) * ∑ e ∈ E, (b e d : EReal) = ((a d * ∑ e ∈ E, b e d : ℝ) : EReal) := fun d => by
    rw [EReal.coe_mul, coe_sum]
  have hr : ∀ e, ∑ d, (b e d : EReal) * (a d : EReal) = ((∑ d, b e d * a d : ℝ) : EReal) := fun e => by
    rw [coe_sum]; exact Finset.sum_congr rfl fun d _ => (EReal.coe_mul _ _).symm
  rw [Finset.sum_congr rfl fun d _ => hl d, Finset.sum_congr rfl fun e _ => hr e, ← coe_sum, ← coe_sum]
  congr 1
  simp only [Finset.mul_sum]
  rw [Finset.sum_comm]
  exact Finset.sum_congr rfl fun e _ => Finset.sum_congr rfl fun d _ => mul_comm _ _

end Cert.DotOfSums

end
-- ==== Proof.Spec.lean ====
/-
  One round of message passing on a graph with a prediction head, in two arrangements, and the law that joins them.

  Nodes carry a row of 128 features. An edge e leaves node src e and arrives at node tgt e. With a linear layer
  lin n k = (Σ j, x n j · W k j) + b k, the layer's aggregate at node i is the sum of the messages of the edges
  arriving at i:
      aggRef i k = Σ_{e arrives at i} lin (src e) k .
  The second arrangement sums the raw features of the arriving edges first, applies the weights once per node,
  and pays the bias once per arriving edge by multiplying it with the in-degree:
      aggKer i k = (Σ j, (Σ_{e arrives at i} x (src e) j) · W k j) + (Σ_{e arrives at i} 1) · b k .
  The two agree when x, W and b are real numbers: it is distributivity of the product over a finite sum and an
  exchange of two finite sums, neither of which survives an infinity on the extended reals. The update adds a
  second linear layer of the node's own input u, takes the maximum with 0, and the head is a third linear layer of
  the result; these steps are the same in both arrangements up to the association of one sum of three terms.
-/
import Idealize.ShloMosaic.PureOps.Ideal
import Idealize.ShloMosaic.Lib.ValueIdx
import proofs.«134812_j43361989821071_2_alg».proof.Proof.LibDotOfSums
import proofs.«134812_j43361989821071_2_alg».proof.Proof.LibGatherRows
import proofs.«134812_j43361989821071_2_alg».proof.Proof.LibScatterAddRead

noncomputable section

open scoped BigOperators

namespace Cert.Gnn

open Idealize.ShloMosaic Idealize.ShloMosaic.ValueIdx

/-- One row of 128 features per node. -/
abbrev SNode : Shape := ⟨2, ![100000, 128]⟩
/-- A square weight matrix, stored output-major: entry (k, j) multiplies input feature j into output feature k. -/
abbrev SMat : Shape := ⟨2, ![128, 128]⟩
/-- A bias over the 128 features. -/
abbrev SVec : Shape := ⟨1, ![128]⟩
/-- The head's weights, 64 outputs of 128 features, and its bias. -/
abbrev SHeadW : Shape := ⟨2, ![64, 128]⟩
abbrev SHeadB : Shape := ⟨1, ![64]⟩
/-- The head's result: 64 predictions per node. -/
abbrev SPred : Shape := ⟨2, ![100000, 64]⟩
/-- One signed node number per edge, stored as a column. -/
abbrev SCol : Shape := ⟨2, ![1600000, 1]⟩

section Arrangements

variable (x u : SNode.Idx → EReal) (scol tcol : IVec SCol 32)
  (Ww : SMat.Idx → EReal) (Wb : SVec.Idx → EReal) (Pw : SMat.Idx → EReal) (Pb : SVec.Idx → EReal)
  (Qw : SHeadW.Idx → EReal) (Qb : SHeadB.Idx → EReal)

/-- The edges that arrive at node i: those whose signed target number is i (a target outside the node range
    arrives nowhere). -/
def inEdges (i : Fin 100000) : Finset (Fin 1600000) := Cert.ScatterAddRead.landing tcol i.val

/-- The node an edge leaves from: its signed source number clamped into the node range. -/
def srcNode (e : Fin 1600000) : Fin 100000 := Cert.GatherRows.row (N := 100000) (by decide) scol e

/-- The first linear layer at node n, output feature k. -/
def lin (n : Fin 100000) (k : Fin 128) : EReal := (∑ j : Fin 128, x (ix2 n j) * Ww (ix2 k j)) + Wb (ix1 k)

/-- The aggregate, messages first: the sum over the arriving edges of the linear layer at their sources. -/
def aggRef (i : Fin 100000) (k : Fin 128) : EReal := ∑ e ∈ inEdges tcol i, lin x Ww Wb (srcNode scol e) k

/-- The aggregate, features first: the arriving edges' source features summed, then the weights once, and the bias
    times the number of arriving edges. -/
def aggKer (i : Fin 100000) (k : Fin 128) : EReal :=
  (∑ j : Fin 128, (∑ e ∈ inEdges tcol i, x (ix2 (srcNode scol e) j)) * Ww (ix2 k j))
    + (∑ _e ∈ inEdges tcol i, (1 : EReal)) * Wb (ix1 k)

/-- The second linear layer's product, of the node's own input. -/
def own (i : Fin 100000) (k : Fin 128) : EReal := ∑ j : Fin 128, u (ix2 i j) * Pw (ix2 k j)

/-- The updated node state, messages first: aggregate plus own product, then the bias, then the maximum with 0. -/
def hidRef (i : Fin 100000) (k : Fin 128) : EReal :=
  max ((aggRef x scol tcol Ww Wb i k + own u Pw i k) + Pb (ix1 k)) 0

/-- The updated node state, features first: the aggregate plus the whole second linear layer, then the maximum with 0. -/
def hidKer (i : Fin 100000) (k : Fin 128) : EReal :=
  max (aggKer x scol tcol Ww Wb i k + (own u Pw i k + Pb (ix1 k))) 0

/-- The prediction head over a node state h. -/
def head (h : Fin 100000 → Fin 128 → EReal) (i : Fin 100000) (o : Fin 64) : EReal :=
  (∑ k : Fin 128, h i k * Qw (ix2 o k)) + Qb (ix1 o)

end Arrangements

/-! ## The law -/

/-- Counting the members of a finite set and multiplying a number by the count is adding the number once per member. -/
theorem count_mul {ι : Type} (L : Finset ι) (b : EReal) : (∑ _e ∈ L, (1 : EReal)) * b = ∑ _e ∈ L, b := by
  rw [Finset.sum_const, Finset.sum_const, EReal.nsmul_eq_mul, EReal.nsmul_eq_mul, mul_one]

/-- On real features, weights and biases the two aggregates are equal. -/
theorem aggKer_eq_aggRef (xr : SNode.Idx → ℝ) (scol tcol : IVec SCol 32) (wr : SMat.Idx → ℝ) (br : SVec.Idx → ℝ)
    (i : Fin 100000) (k : Fin 128) :
    aggKer (fun a => (xr a : EReal)) scol tcol (fun a => (wr a : EReal)) (fun a => (br a : EReal)) i k
      = aggRef (fun a => (xr a : EReal)) scol tcol (fun a => (wr a : EReal)) (fun a => (br a : EReal)) i k := by
  unfold aggKer aggRef lin
  rw [Finset.sum_add_distrib]
  refine congrArg₂ (· + ·) ?_ ?_
  · exact (Finset.sum_congr rfl fun j _ => mul_comm _ _).trans
      (Cert.DotOfSums.dot_of_sums (inEdges tcol i) (fun j => wr (ix2 k j)) (fun e j => xr (ix2 (srcNode scol e) j)))
  · exact count_mul _ _

/-- An extended real that is neither infinity is a real number. -/
theorem exists_real {a : EReal} (h : a ≠ ⊤ ∧ a ≠ ⊥) : ∃ r : ℝ, a = (r : EReal) :=
  ⟨a.toReal, (EReal.coe_toReal h.1 h.2).symm⟩

/-- So on finite features, weights and biases the two updated node states are equal: the aggregates by the law, the
    rest by the association of a sum. -/
theorem hidKer_eq_hidRef (x u : SNode.Idx → EReal) (scol tcol : IVec SCol 32)
    (Ww : SMat.Idx → EReal) (Wb : SVec.Idx → EReal) (Pw : SMat.Idx → EReal) (Pb : SVec.Idx → EReal)
    (hx : ∀ a, ∃ r : ℝ, x a = (r : EReal)) (hw : ∀ a, ∃ r : ℝ, Ww a = (r : EReal)) (hb : ∀ a, ∃ r : ℝ, Wb a = (r : EReal))
    (i : Fin 100000) (k : Fin 128) :
    hidKer x u scol tcol Ww Wb Pw Pb i k = hidRef x u scol tcol Ww Wb Pw Pb i k := by
  choose xr hxr using hx
  choose wr hwr using hw
  choose br hbr using hb
  obtain rfl : x = fun a => (xr a : EReal) := funext hxr
  obtain rfl : Ww = fun a => (wr a : EReal) := funext hwr
  obtain rfl : Wb = fun a => (br a : EReal) := funext hbr
  unfold hidKer hidRef
  rw [aggKer_eq_aggRef, ← add_assoc]

end Cert.Gnn

end
-- ==== Proof.KernelHost.lean ====
/-
  What the kernel's call finds in each operand array: the host operations before the call, read at coordinates.

  Before the call the program gathers, for every edge, the feature row of the edge's source node, and adds each
  gathered row into the row of the edge's target node, starting from zeros: entry (i, j) of that array is the sum over
  the edges arriving at i of feature j of their sources. The same scatter of the constant 1 counts the arriving edges:
  entry (i, 0) of the in-degree column. The three weight matrices are transposed (entry (j, k) of the operand is
  entry (k, j) of the argument) and the three biases are recast as rows. An edge's source number is row 0 of the edge
  list with a negative number raised by the node count; its target number is row 1.
-/
import proofs.«134812_j43361989821071_2_alg».proof.Proof.Gen.KernelIdeal.Frame
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import proofs.«134812_j43361989821071_2_alg».proof.Proof.LibGatherRows
import proofs.«134812_j43361989821071_2_alg».proof.Proof.LibScatterAddRead
import proofs.«134812_j43361989821071_2_alg».proof.Proof.LibLayoutRead
import proofs.«134812_j43361989821071_2_alg».proof.Proof.Spec

noncomputable section

open scoped BigOperators

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

/-- The float word 1.0 denotes the number 1. -/
theorem ofBits_one : Ideal.ofBits .f32 0x3F800000#32 = (1 : EReal) := by
  simp [Ideal.ofBits, Ideal.ieee, -EReal.coe_mul]; norm_num

/-- Row r of the edge list as a vector of edge numbers. -/
abbrev edgeRow0 (ei : IVec S2x1600000 32) : IVec S1600000 32 :=
  shapeCast S1600000 (extractStridedSlice S1x1600000 ![0, 0] ei Facts₀.slices_S2x1600000_S1x1600000_0_0) Facts₀.shapeCasts_S1x1600000_S1600000
abbrev edgeRow1 (ei : IVec S2x1600000 32) : IVec S1600000 32 :=
  shapeCast S1600000 (extractStridedSlice S1x1600000 ![1, 0] ei Facts₀.slices_S2x1600000_S1x1600000_1_0) Facts₀.shapeCasts_S1x1600000_S1600000

/-- The edges' source numbers as a column: a negative number is raised by the node count. -/
abbrev srcCol (ei : IVec S2x1600000 32) : IVec S1600000x1 32 :=
  broadcastInDim S1600000x1 ![0] Facts₀.bcast_S1600000_S1600000x1_0
    (select (cmpi .slt (edgeRow0 ei) (broadcastInDim S1600000 ![] Facts₀.bcast_S_S1600000 (constantI S_ 32 0#32)))
      (addi (edgeRow0 ei) (broadcastInDim S1600000 ![] Facts₀.bcast_S_S1600000 (constantI S_ 32 100000#32)))
      (edgeRow0 ei))

/-- The edges' target numbers as a column. -/
abbrev tgtCol (ei : IVec S2x1600000 32) : IVec S1600000x1 32 :=
  broadcastInDim S1600000x1 ![0] Facts₀.bcast_S1600000_S1600000x1_0 (edgeRow1 ei)

variable (m : (ℓ : Loc nD τ sig) → Buf (Elt Ideal) ℓ)

/-- The argument arrays as launched on core c, at their plain types: node features, own inputs, edge list, and the
    three layers' weights and biases. -/
abbrev aX (c : Dev nD) : S100000x128.Idx → EReal := m ((c : Thread nD τ).loc main_arg0)
abbrev aU (c : Dev nD) : S100000x128.Idx → EReal := m ((c : Thread nD τ).loc main_arg1)
abbrev aE (c : Dev nD) : IVec S2x1600000 32 := m ((c : Thread nD τ).loc main_arg2)
abbrev aWw (c : Dev nD) : S128x128.Idx → EReal := m ((c : Thread nD τ).loc main_arg3)
abbrev aWb (c : Dev nD) : S128.Idx → EReal := m ((c : Thread nD τ).loc main_arg4)
abbrev aPw (c : Dev nD) : S128x128.Idx → EReal := m ((c : Thread nD τ).loc main_arg5)
abbrev aPb (c : Dev nD) : S128.Idx → EReal := m ((c : Thread nD τ).loc main_arg6)
abbrev aQw (c : Dev nD) : S64x128.Idx → EReal := m ((c : Thread nD τ).loc main_arg7)
abbrev aQb (c : Dev nD) : S64.Idx → EReal := m ((c : Thread nD τ).loc main_arg8)

/-! ## The operand arrays as terms of the arguments -/

set_option maxHeartbeats 2000000 in
theorem V_aggx (c : Dev nD) : (V m c main_v13 : S100000x128.Idx → EReal)
    = Host.scatterAdd scatter_S100000x128_S1600000x1_S1600000x128_1_0_0_1
        (broadcastInDim S100000x128 ![] Facts₀.bcast_S_S100000x128 (constant (F := Ideal) S_ .f32 0x00000000#32))
        (tgtCol (aE m c))
        (Host.gather gather_S100000x128_S1600000x1_S1600000x128_1_0_n_n_0_1_1128 (aX m c) (srcCol (aE m c))) := by
  dsimp only [Gen.V, Gen.hostOps0]; after_results <;> rfl

set_option maxHeartbeats 2000000 in
theorem V_deg (c : Dev nD) : (V m c main_v18 : S100000x1.Idx → EReal)
    = shapeCast S100000x1 (Host.scatterAdd scatter_S100000_S1600000x1_S1600000_n_0_0_1
        (broadcastInDim S100000 ![] Facts₀.bcast_S_S100000 (constant (F := Ideal) S_ .f32 0x00000000#32))
        (tgtCol (aE m c))
        (broadcastInDim S1600000 ![] Facts₀.bcast_S_S1600000 (constant (F := Ideal) S_ .f32 0x3F800000#32))) Facts₀.shapeCasts_S100000_S100000x1 := by
  dsimp only [Gen.V, Gen.hostOps0]; after_results <;> rfl

theorem V_wwT (c : Dev nD) : (V m c main_v19 : S128x128.Idx → EReal)
    = transpose S128x128 [1, 0] (aWw m c) Facts₀.transposes_S128x128_S128x128_1_0 := by
  dsimp only [Gen.V, Gen.hostOps0]; after_results <;> rfl

theorem V_pwT (c : Dev nD) : (V m c main_v20 : S128x128.Idx → EReal)
    = transpose S128x128 [1, 0] (aPw m c) Facts₀.transposes_S128x128_S128x128_1_0 := by
  dsimp only [Gen.V, Gen.hostOps0]; after_results <;> rfl

theorem V_qwT (c : Dev nD) : (V m c main_v21 : S128x64.Idx → EReal)
    = transpose S128x64 [1, 0] (aQw m c) Facts₀.transposes_S64x128_S128x64_1_0 := by
  dsimp only [Gen.V, Gen.hostOps0]; after_results <;> rfl

theorem V_wb (c : Dev nD) : (V m c main_v22 : S1x128.Idx → EReal)
    = shapeCast S1x128 (aWb m c) Facts₀.shapeCasts_S128_S1x128 := by
  dsimp only [Gen.V, Gen.hostOps0]; after_results <;> rfl

theorem V_pb (c : Dev nD) : (V m c main_v23 : S1x128.Idx → EReal)
    = shapeCast S1x128 (aPb m c) Facts₀.shapeCasts_S128_S1x128 := by
  dsimp only [Gen.V, Gen.hostOps0]; after_results <;> rfl

theorem V_qb (c : Dev nD) : (V m c main_v24 : S1x64.Idx → EReal)
    = shapeCast S1x64 (aQb m c) Facts₀.shapeCasts_S64_S1x64 := by
  dsimp only [Gen.V, Gen.hostOps0]; after_results <;> rfl

/-! ## Read at coordinates -/

/-- A vector [n] recast as the row [1, n] reads, at (u, j), the vector at j. -/
theorem cast_row {α : Type} {n : ℕ} (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_two, Shape.rowMajor_val_one]
    show j.val = u.val * n + j.val
    rw [hu]; omega)

/-- A transposed matrix reads, at (j, k), the matrix at (k, j). -/
theorem transpose_sq {α : Type} {a b : ℕ} (x : (⟨2, ![a, b]⟩ : Shape).Idx → α) (h : (⟨2, ![a, b]⟩ : Shape).Transposes [1, 0] ⟨2, ![b, a]⟩)
    (j : Fin b) (k : Fin a) : transpose ⟨2, ![b, a]⟩ [1, 0] x h (ix2 j k) = x (ix2 k j) :=
  transpose_apply [1, 0] x h (ix2 j k) (ix2 k j) (fun bb => match bb with
    | ⟨0, _⟩ => rfl
    | ⟨1, _⟩ => rfl)

/-- THE SUMMED SOURCE FEATURES at node i, feature j. -/
theorem aggx_apply (c : Dev nD) (i : Fin 100000) (j : Fin 128) :
    (V m c main_v13 : S100000x128.Idx → EReal) (ix2 i j)
      = ∑ e ∈ Cert.Gnn.inEdges (tgtCol (aE m c)) i,
          aX m c (ix2 (Cert.Gnn.srcNode (srcCol (aE m c)) e) j) := by
  rw [V_aggx]
  refine (Cert.ScatterAddRead.scatterAdd_row_apply Facts₀.scatter_S100000x128_S1600000x1_S1600000x128_1_0_0_1_wf _ _ _ i j).trans ?_
  rw [Cert.LayoutRead.bcast_scalar, constant_apply, Ideal.ofBits_zero_f32, zero_add]
  exact Finset.sum_congr rfl fun e _ =>
    Cert.GatherRows.gather_rows_apply (Nat.succ_pos _) Facts₀.gather_S100000x128_S1600000x1_S1600000x128_1_0_n_n_0_1_1128_wf _ _ e j

/-- THE IN-DEGREE of node i. -/
theorem deg_apply (c : Dev nD) (i : Fin 100000) (u : Fin 1) :
    (V m c main_v18 : S100000x1.Idx → EReal) (ix2 i u) = ∑ _e ∈ Cert.Gnn.inEdges (tgtCol (aE m c)) i, (1 : EReal) := by
  rw [V_deg]
  refine (Cert.LayoutRead.cast_col _ _ i u).trans ?_
  refine (Cert.ScatterAddRead.scatterAdd_vec_apply Facts₀.scatter_S100000_S1600000x1_S1600000_n_0_0_1_wf _ _ _ i).trans ?_
  rw [Cert.LayoutRead.bcast_scalar, constant_apply, Ideal.ofBits_zero_f32, zero_add]
  refine Finset.sum_congr rfl fun e _ => ?_
  rw [Cert.LayoutRead.bcast_scalar, constant_apply, ofBits_one]

theorem wwT_apply (c : Dev nD) (j k : Fin 128) :
    (V m c main_v19 : S128x128.Idx → EReal) (ix2 j k) = aWw m c (ix2 k j) := by
  rw [V_wwT]; exact transpose_sq _ _ j k

theorem pwT_apply (c : Dev nD) (j k : Fin 128) :
    (V m c main_v20 : S128x128.Idx → EReal) (ix2 j k) = aPw m c (ix2 k j) := by
  rw [V_pwT]; exact transpose_sq _ _ j k

theorem qwT_apply (c : Dev nD) (k : Fin 128) (o : Fin 64) :
    (V m c main_v21 : S128x64.Idx → EReal) (ix2 k o) = aQw m c (ix2 o k) := by
  rw [V_qwT]; exact transpose_sq _ _ k o

theorem wb_apply (c : Dev nD) (u : Fin 1) (k : Fin 128) :
    (V m c main_v22 : S1x128.Idx → EReal) (ix2 u k) = aWb m c (ix1 k) := by
  rw [V_wb]; exact cast_row _ _ u k

theorem pb_apply (c : Dev nD) (u : Fin 1) (k : Fin 128) :
    (V m c main_v23 : S1x128.Idx → EReal) (ix2 u k) = aPb m c (ix1 k) := by
  rw [V_pb]; exact cast_row _ _ u k

theorem qb_apply (c : Dev nD) (u : Fin 1) (o : Fin 64) :
    (V m c main_v24 : S1x64.Idx → EReal) (ix2 u o) = aQb m c (ix1 o) := by
  rw [V_qb]; exact cast_row _ _ u o

end Cert.KernelIdeal.Host

end
-- ==== Proof.KernelValue.lean ====
/-
  The call's two result arrays as the specification's functions of the argument arrays, and the kernel's run.

  The blocks give each result array as a function of the operand arrays the call finds; the host operations before the
  call give each operand array as a function of the arguments. Composed, the node-state result at (i, k) is the
  features-first arrangement: the arriving edges' source features summed, multiplied into the transposed first
  weights, plus in-degree times first bias, plus the second layer, maximum with 0; and the prediction result is the
  head over it. On finite first-layer features, weights and biases that arrangement is the messages-first one.
-/
import proofs.«134812_j43361989821071_2_alg».proof.Proof.KernelBlocks
import proofs.«134812_j43361989821071_2_alg».proof.Proof.KernelHost
import proofs.«134812_j43361989821071_2_alg».proof.Proof.Spec

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.KernelIdeal.Host Cert.KernelIdeal.Blocks

variable (m : (ℓ : Loc nD τ sig) → Buf (Elt Ideal) ℓ) (ρ : Dev nD → PrngReg)

/-- Each window's array is the buffer the printed call names for that operand. -/
theorem opnd0 (c : Dev nD) : V m c (Pipeline.arrRef spec0 (0 : Fin cfg0.W)) = V m c main_v13 := rfl
theorem opnd1 (c : Dev nD) : V m c (Pipeline.arrRef spec0 (1 : Fin cfg0.W)) = V m c main_v18 := rfl
theorem opnd2 (c : Dev nD) : V m c (Pipeline.arrRef spec0 (2 : Fin cfg0.W)) = V m c main_arg1 := rfl
theorem opnd3 (c : Dev nD) : V m c (Pipeline.arrRef spec0 (3 : Fin cfg0.W)) = V m c main_v19 := rfl
theorem opnd4 (c : Dev nD) : V m c (Pipeline.arrRef spec0 (4 : Fin cfg0.W)) = V m c main_v22 := rfl
theorem opnd5 (c : Dev nD) : V m c (Pipeline.arrRef spec0 (5 : Fin cfg0.W)) = V m c main_v20 := rfl
theorem opnd6 (c : Dev nD) : V m c (Pipeline.arrRef spec0 (6 : Fin cfg0.W)) = V m c main_v23 := rfl
theorem opnd7 (c : Dev nD) : V m c (Pipeline.arrRef spec0 (7 : Fin cfg0.W)) = V m c main_v21 := rfl
theorem opnd8 (c : Dev nD) : V m c (Pipeline.arrRef spec0 (8 : Fin cfg0.W)) = V m c main_v24 := rfl

/-- The node state over the operand arrays is the features-first arrangement over the arguments. -/
theorem hidOf_eq (c : Dev nD) :
    hidOf (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) (V m c (Pipeline.arrRef spec0 (5 : Fin cfg0.W))) (V m c (Pipeline.arrRef spec0 (6 : Fin cfg0.W)))
      = fun a => Cert.Gnn.hidKer (aX m c) (aU m c) (srcCol (aE m c)) (tgtCol (aE m c)) (aWw m c) (aWb m c) (aPw m c) (aPb m c) (a 0) (a 1) := by
  rw [opnd0, opnd1, opnd2, opnd3, opnd4, opnd5, opnd6]
  funext a
  unfold hidOf Cert.Gnn.hidKer Cert.Gnn.aggKer Cert.Gnn.own
  exact congrArg (max · (0 : EReal)) (congrArg₂ (· + ·)
    (congrArg₂ (· + ·)
      (Finset.sum_congr rfl fun j _ => congrArg₂ (· * ·) (aggx_apply m c (a 0) j) (wwT_apply m c j (a 1)))
      (congrArg₂ (· * ·) (deg_apply m c (a 0) 0) (wb_apply m c 0 (a 1))))
    (congrArg₂ (· + ·)
      (Finset.sum_congr rfl fun j _ => congrArg₂ (· * ·) (congrFun (V_main_arg1 m c) (ix2 (a 0) j)) (pwT_apply m c j (a 1)))
      (pb_apply m c 0 (a 1))))

/-- The predictions over the operand arrays are the head over that arrangement. -/
theorem outOf_eq (c : Dev nD) :
    outOf (hidOf (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) (V m c (Pipeline.arrRef spec0 (5 : Fin cfg0.W))) (V m c (Pipeline.arrRef spec0 (6 : Fin cfg0.W)))) (V m c (Pipeline.arrRef spec0 (7 : Fin cfg0.W))) (V m c (Pipeline.arrRef spec0 (8 : Fin cfg0.W)))
      = fun a => Cert.Gnn.head (aQw m c) (aQb m c) (Cert.Gnn.hidKer (aX m c) (aU m c) (srcCol (aE m c)) (tgtCol (aE m c)) (aWw m c) (aWb m c) (aPw m c) (aPb m c)) (a 0) (a 1) := by
  rw [hidOf_eq, opnd7, opnd8]
  funext a
  unfold outOf Cert.Gnn.head
  exact congrArg₂ (· + ·)
    (Finset.sum_congr rfl fun k _ => congrArg₂ (· * ·) rfl (qwT_apply m c k (a 1)))
    (qb_apply m c 0 (a 1))

/-- THE KERNEL'S RUN, READ: when the first layer's features, weights and biases are real numbers, every weakly fair
    execution ends with the node-state result at the messages-first arrangement of the arguments, the prediction result
    at the head over it, and the arguments unchanged. -/
theorem run (hx : ∀ c i, ∃ r : ℝ, aX m c i = (r : EReal)) (hw : ∀ c i, ∃ r : ℝ, aWw m c i = (r : EReal))
    (hb : ∀ c i, ∃ r : ℝ, aWb m c i = (r : EReal)) :
    θ_run defs (onTc (τ := τ) (main (F := Ideal))) ⟨m, fun _ => 0, ρ⟩ fun r => ∀ c : Dev nD,
      r.2.mem ((c : Thread nD τ).loc main_v25_0)
        = (fun a => Cert.Gnn.hidRef (aX m c) (aU m c) (srcCol (aE m c)) (tgtCol (aE m c)) (aWw m c) (aWb m c) (aPw m c) (aPb m c) (a 0) (a 1))
      ∧ r.2.mem ((c : Thread nD τ).loc main_v25_1)
        = (fun a => Cert.Gnn.head (aQw m c) (aQb m c) (Cert.Gnn.hidRef (aX m c) (aU m c) (srcCol (aE m c)) (tgtCol (aE m c)) (aWw m c) (aWb m c) (aPw m c) (aPb m c)) (a 0) (a 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  have hh : ∀ c : Dev nD, Cert.Gnn.hidKer (aX m c) (aU m c) (srcCol (aE m c)) (tgtCol (aE m c)) (aWw m c) (aWb m c) (aPw m c) (aPb m c) = Cert.Gnn.hidRef (aX m c) (aU m c) (srcCol (aE m c)) (tgtCol (aE m c)) (aWw m c) (aWb m c) (aPw m c) (aPb m c) := fun c =>
    funext fun i => funext fun k => Cert.Gnn.hidKer_eq_hidRef _ _ _ _ _ _ _ _ (hx c) (hw c) (hb c) i k
  refine (θ_run defs _ _).mono (fun r h c => ⟨?_, ?_, (h c).2.2⟩) (Value.run_blocks m ρ)
  · rw [← hh c]
    exact (h c).1.trans ((final9 m c).trans (hidOf_eq m c))
  · rw [← hh c]
    exact (h c).2.1.trans ((final10 m c).trans (outOf_eq m c))

end Cert.KernelIdeal.Hand

end
-- ==== Proof.RefValue.lean ====
/-
  The reference program is the specification, index by index.

  Read one operation at a time, the reference computes at node i and feature k
      max ((Σ_{e arrives at i} lin (src e) k + Σ j, u i j · P k j) + c k) 0 ,
  where lin n k = (Σ j, x n j · W k j) + b k is the first linear layer. The weight matrices are stored
  output-major and transposed before each product, so the product's element (n, k) pairs x n j with W k j. The
  row gather gives edge e the row of the first layer at its source node, the signed source number clamped into
  the node range. The accumulating scatter starts from the zero matrix, whose element adds nothing, and gives
  node i the sum of the rows of the edges whose signed target number is i. The second operand of the maximum is
  the zero constant. The result is the head's linear layer over that node state, (Σ k, h i k · Q o k) + d o.

  Each stage is read at coordinates (i, k); the two index columns are the ones the reference itself computes
  from its edge list.
-/
import proofs.«134812_j43361989821071_2_alg».proof.Proof.Gen.ReferenceIdeal.Read
import proofs.«134812_j43361989821071_2_alg».proof.Proof.Spec
import proofs.«134812_j43361989821071_2_alg».proof.Proof.LibGatherRows
import proofs.«134812_j43361989821071_2_alg».proof.Proof.LibScatterAddRead

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- The first linear layer. -/
theorem lin_read (x0 : (⟨S100000x128, .f32⟩ : BufTy).Contents (Elt Ideal)) (x3 : (⟨S128x128, .f32⟩ : BufTy).Contents (Elt Ideal))
    (x4 : (⟨S128, .f32⟩ : BufTy).Contents (Elt Ideal)) (n : Fin 100000) (k : Fin 128) :
    Read.val_main_v8 (F := Ideal) x0 x3 x4 (ix2 n k) = Cert.Gnn.lin x0 x3 x4 n k := by
  unfold Cert.Gnn.lin
  rw [Read.val_main_v8_apply, Read.val_main_v5_apply, Read.val_main_v7_apply, Read.val_main_v6_apply]
  show (∑ j : Fin 128, x0 (Read.lidx_main_v5 (ix2 n k) j) * Read.val_main_v4 (F := Ideal) x3 (Read.ridx_main_v5 (ix2 n k) j))
      + x4 (Read.idx_main_v6 (Read.idx_main_v7 (ix2 n k))) = _
  refine congrArg₂ (· + ·) (Finset.sum_congr rfl fun j _ => ?_) ?_
  · rw [Read.val_main_v4_apply]
    refine congrArg₂ (· * ·) (congrArg x0 ?_) (congrArg x3 ?_)
    · exact funext fun b => Fin.ext (by match b with | ⟨0, _⟩ => rfl | ⟨1, _⟩ => rfl)
    · exact funext fun b => Fin.ext (by match b with | ⟨0, _⟩ => rfl | ⟨1, _⟩ => rfl)
  · exact congrArg x4 (funext fun b => Fin.ext (by match b with | ⟨0, _⟩ => rfl))

/-- The second linear layer's product. -/
theorem own_read (x1 : (⟨S100000x128, .f32⟩ : BufTy).Contents (Elt Ideal)) (x5 : (⟨S128x128, .f32⟩ : BufTy).Contents (Elt Ideal))
    (i : Fin 100000) (k : Fin 128) :
    Read.val_main_v20 (F := Ideal) x1 x5 (ix2 i k) = Cert.Gnn.own x1 x5 i k := by
  unfold Cert.Gnn.own
  rw [Read.val_main_v20_apply]
  refine Finset.sum_congr rfl fun j _ => ?_
  rw [Read.val_main_v19_apply]
  refine congrArg₂ (· * ·) (congrArg x1 ?_) (congrArg x5 ?_)
  · exact funext fun b => Fin.ext (by match b with | ⟨0, _⟩ => rfl | ⟨1, _⟩ => rfl)
  · exact funext fun b => Fin.ext (by match b with | ⟨0, _⟩ => rfl | ⟨1, _⟩ => rfl)

/-- The second bias, spread over the nodes. -/
theorem bias_read (x6 : (⟨S128, .f32⟩ : BufTy).Contents (Elt Ideal)) (i : Fin 100000) (k : Fin 128) :
    Read.val_main_v23 (F := Ideal) x6 (ix2 i k) = x6 (ix1 k) := by
  rw [Read.val_main_v23_apply, Read.val_main_v22_apply]
  exact congrArg x6 (funext fun b => Fin.ext (by match b with | ⟨0, _⟩ => rfl))

/-- The row gather: edge e reads the first linear layer at its source node. -/
theorem gather_read (x0 : (⟨S100000x128, .f32⟩ : BufTy).Contents (Elt Ideal)) (x2 : (⟨S2x1600000, .i32⟩ : BufTy).Contents (Elt Ideal))
    (x3 : (⟨S128x128, .f32⟩ : BufTy).Contents (Elt Ideal)) (x4 : (⟨S128, .f32⟩ : BufTy).Contents (Elt Ideal))
    (e : Fin 1600000) (k : Fin 128) :
    Read.val_main_v15 (F := Ideal) x0 x2 x3 x4 (ix2 e k)
      = Cert.Gnn.lin x0 x3 x4 (Cert.Gnn.srcNode (Read.val_main_v14 (F := Ideal) x2) e) k := by
  rw [← lin_read]
  exact Cert.GatherRows.gather_rows_apply (N := 100000) (M := 1600000) (B := 128) (by decide)
    Facts₀.gather_S100000x128_S1600000x1_S1600000x128_1_0_n_n_0_1_1128_wf
    (Read.val_main_v8 (F := Ideal) x0 x3 x4) (Read.val_main_v14 (F := Ideal) x2) e k

/-- The accumulating scatter into zeros: node i receives the messages of the edges that arrive at it. -/
theorem agg_read (x0 : (⟨S100000x128, .f32⟩ : BufTy).Contents (Elt Ideal)) (x2 : (⟨S2x1600000, .i32⟩ : BufTy).Contents (Elt Ideal))
    (x3 : (⟨S128x128, .f32⟩ : BufTy).Contents (Elt Ideal)) (x4 : (⟨S128, .f32⟩ : BufTy).Contents (Elt Ideal))
    (i : Fin 100000) (k : Fin 128) :
    Read.val_main_v18 (F := Ideal) x0 x2 x3 x4 (ix2 i k)
      = Cert.Gnn.aggRef x0 (Read.val_main_v14 (F := Ideal) x2) (Read.val_main_v17 (F := Ideal) x2) x3 x4 i k := by
  unfold Cert.Gnn.aggRef Cert.Gnn.inEdges
  refine (Cert.ScatterAddRead.scatterAdd_row_apply (φ := .f32) (N := 100000) (M := 1600000) (B := 128)
    Facts₀.scatter_S100000x128_S1600000x1_S1600000x128_1_0_0_1_wf (Read.val_main_v16 (F := Ideal))
    (Read.val_main_v17 (F := Ideal) x2) (Read.val_main_v15 (F := Ideal) x0 x2 x3 x4) i k).trans ?_
  rw [Read.val_main_v16_apply, Read.val_main_cst_apply, Ideal.ofBits_def, Ideal.ofBits_zero_f32, zero_add]
  exact Finset.sum_congr rfl fun e _ => gather_read x0 x2 x3 x4 e k

/-- The updated node state at (i, k): aggregate plus own product, plus the bias, maximum with 0. -/
theorem hid_read (x0 x1 : (⟨S100000x128, .f32⟩ : BufTy).Contents (Elt Ideal)) (x2 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (i : Fin 100000) (k : Fin 128) :
    Read.val_main_v25 (F := Ideal) x0 x1 x2 x3 x4 x5 x6 (ix2 i k)
      = Cert.Gnn.hidRef x0 x1 (Read.val_main_v14 (F := Ideal) x2) (Read.val_main_v17 (F := Ideal) x2) x3 x4 x5 x6 i k := by
  unfold Cert.Gnn.hidRef
  rw [Read.val_main_v25_apply, Read.val_main_v24_apply, Read.val_main_v21_apply, agg_read, own_read, bias_read,
    Read.val_main_call0_v0_apply, Read.val_main_call0_cst_apply, Ideal.ofBits_def, Ideal.ofBits_zero_f32]
  rfl

/-- The reference's node state is the specification's, messages first. -/
theorem hid_eq (x0 x1 : (⟨S100000x128, .f32⟩ : BufTy).Contents (Elt Ideal)) (x2 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    Read.val_main_v25 (F := Ideal) x0 x1 x2 x3 x4 x5 x6
      = fun a => Cert.Gnn.hidRef x0 x1 (Read.val_main_v14 (F := Ideal) x2) (Read.val_main_v17 (F := Ideal) x2) x3 x4 x5 x6 (a 0) (a 1) := by
  funext a
  obtain ⟨i, k, rfl⟩ : ∃ (i : Fin 100000) (k : Fin 128), a = ix2 i k := ⟨a 0, a 1, eq_ix2 a⟩
  exact hid_read x0 x1 x2 x3 x4 x5 x6 i k

/-- The reference's result is the specification's head over that node state. -/
theorem out_eq (x0 x1 : (⟨S100000x128, .f32⟩ : BufTy).Contents (Elt Ideal)) (x2 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S64x128, .f32⟩ : BufTy).Contents (Elt Ideal)) (x8 : (⟨S64, .f32⟩ : BufTy).Contents (Elt Ideal)) :
    Read.val_main_v30 (F := Ideal) x0 x1 x2 x3 x4 x5 x6 x7 x8
      = fun a => Cert.Gnn.head x7 x8
          (Cert.Gnn.hidRef x0 x1 (Read.val_main_v14 (F := Ideal) x2) (Read.val_main_v17 (F := Ideal) x2) x3 x4 x5 x6) (a 0) (a 1) := by
  funext a
  obtain ⟨i, o, rfl⟩ : ∃ (i : Fin 100000) (o : Fin 64), a = ix2 i o := ⟨a 0, a 1, eq_ix2 a⟩
  unfold Cert.Gnn.head
  rw [Read.val_main_v30_apply, Read.val_main_v27_apply, Read.val_main_v29_apply, Read.val_main_v28_apply]
  show (∑ k : Fin 128, Read.val_main_v25 (F := Ideal) x0 x1 x2 x3 x4 x5 x6 (Read.lidx_main_v27 (ix2 i o) k)
        * Read.val_main_v26 (F := Ideal) x7 (Read.ridx_main_v27 (ix2 i o) k))
      + x8 (Read.idx_main_v28 (Read.idx_main_v29 (ix2 i o))) = _
  refine congrArg₂ (· + ·) (Finset.sum_congr rfl fun k _ => ?_) ?_
  · rw [Read.val_main_v26_apply]
    refine congrArg₂ (· * ·) ?_ (congrArg x7 ?_)
    · have e : Read.lidx_main_v27 (ix2 i o) k = ix2 i k :=
        funext fun b => Fin.ext (by match b with | ⟨0, _⟩ => rfl | ⟨1, _⟩ => rfl)
      exact (congrArg (Read.val_main_v25 (F := Ideal) x0 x1 x2 x3 x4 x5 x6) e).trans (hid_read x0 x1 x2 x3 x4 x5 x6 i k)
    · exact funext fun b => Fin.ext (by match b with | ⟨0, _⟩ => rfl | ⟨1, _⟩ => rfl)
  · exact congrArg x8 (funext fun b => Fin.ext (by match b with | ⟨0, _⟩ => rfl))

end Cert.ReferenceIdeal.RefValue

end
-- ==== Proof.Finite.lean ====
/-
  The precondition is a one-bit word: the conjunction, over the eight float arguments, of "every entry x has
  |x| < +inf", where |x| = max x (-x) is taken in the extended reals, the bound is the extended real that the
  word 0x7F800000 encodes (namely ⊤), and "every entry" is a reduction by "and" over all axes started at 1.
  A conjunction of bits is 1 only if each bit is; a reduction by "and" onto a single cell is 1 only if every
  reduced bit is; and max x (-x) < ⊤ excludes x = ⊤ (then x itself is ⊤) and x = ⊥ (then -x is ⊤).  An extended
  real that is neither ⊤ nor ⊥ is the image of a real number.  Hence every entry of each float argument is real.
-/
import proofs.«134812_j43361989821071_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Idealize.ShloMosaic.ValueIdx Cert.Pre_finite_inputs

/-- The rank-0 shape has exactly one index. -/
instance : Subsingleton S_.Idx := ⟨fun a b => funext fun d => d.elim0⟩

/-- The word 0x7F800000 read as an f32 pattern is +inf. -/
theorem ofBits_inf : Ideal.ofBits .f32 0x7F800000#32 = (⊤ : EReal) := by
  simp [Ideal.ofBits, Ideal.ieee]

/-- An extended real whose absolute value max x (-x) is strictly below +inf is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < (⊤ : EReal) := by
    by_contra hn
    simp [Ideal.cmp, hn] at h
  obtain ⟨h1, h2⟩ := max_lt_iff.1 hlt
  have htop : x ≠ ⊤ := ne_of_lt h1
  have hbot : x ≠ ⊥ := by
    rintro rfl
    simp at h2
  exact ⟨x.toReal, (EReal.coe_toReal htop hbot).symm⟩

/-- One argument's conjunct: if the reduction by "and", over all axes, of the bits "|a i| < +inf" is 1,
    every entry of a is a real number. -/
theorem reals_of_all {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi
        (cmpf .olt (Host.absf a) (broadcastInDim S ![] hb (constant (F := Ideal) S_ .f32 0x7F800000#32)))
        (constantI S_ 1 1#1) hr hu ix0 = 1#1) :
    ∀ i, ∃ r : ℝ, a i = (r : EReal) := fun i =>
  real_of_abs_lt (a i) (Host.reduce_andi_all _ _ hr hu ix0 e i)

/-- The precondition decoded in full: every entry of each of the eight float arguments is a real number.
    The predicate's one bit is a left-nested conjunction of the eight per-argument bits, in argument order. -/
theorem reals_of_pre_all [Facts]
    (a0 a1 : FVec Ideal S100000x128 .f32) (a2 : IVec S2x1600000 32)
    (a3 : FVec Ideal S128x128 .f32) (a4 : FVec Ideal S128 .f32)
    (a5 : FVec Ideal S128x128 .f32) (a6 : FVec Ideal S128 .f32)
    (a7 : FVec Ideal S64x128 .f32) (a8 : FVec Ideal S64 .f32)
    (h : fn (F := Ideal) a0 a1 a2 a3 a4 a5 a6 a7 a8 = fun _ => 1#1) :
    (∀ i, ∃ r : ℝ, a0 i = (r : EReal)) ∧ (∀ i, ∃ r : ℝ, a1 i = (r : EReal)) ∧
    (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) := by
  have e := congrFun h ix0
  dsimp only [fn, fn_part1, fn_part2, andi] at e
  simp only [IntOp.andi_eq_one] at e
  obtain ⟨⟨⟨⟨⟨⟨⟨e0, e1⟩, e3⟩, e4⟩, e5⟩, e6⟩, e7⟩, e8⟩ := e
  exact ⟨reals_of_all a0 _ _ _ e0, reals_of_all a1 _ _ _ e1, reals_of_all a3 _ _ _ e3, reals_of_all a4 _ _ _ e4,
    reals_of_all a5 _ _ _ e5, reals_of_all a6 _ _ _ e6, reals_of_all a7 _ _ _ e7, reals_of_all a8 _ _ _ e8⟩

/-- The three arguments the equivalence needs: the first, the fourth and the fifth have real entries. -/
theorem reals_of_pre [Facts]
    (a0 a1 : FVec Ideal S100000x128 .f32) (a2 : IVec S2x1600000 32)
    (a3 : FVec Ideal S128x128 .f32) (a4 : FVec Ideal S128 .f32)
    (a5 : FVec Ideal S128x128 .f32) (a6 : FVec Ideal S128 .f32)
    (a7 : FVec Ideal S64x128 .f32) (a8 : FVec Ideal S64 .f32)
    (h : fn (F := Ideal) a0 a1 a2 a3 a4 a5 a6 a7 a8 = fun _ => 1#1) :
    (∀ i, ∃ r : ℝ, a0 i = (r : EReal)) ∧ (∀ i, ∃ r : ℝ, a3 i = (r : EReal)) ∧ (∀ i, ∃ r : ℝ, a4 i = (r : EReal)) :=
  have H := reals_of_pre_all a0 a1 a2 a3 a4 a5 a6 a7 a8 h
  ⟨H.1, H.2.2.1, H.2.2.2.1⟩

end Cert.Finite

end
-- ==== Proof.lean ====
/-
  The kernel and its reference compute one round of message passing on a graph and a prediction head, and agree on the
  extended reals whenever the float inputs are finite.

  The reference applies the first linear layer x W^T + b to every node, gathers the result at each edge's source, sums
  the gathered rows at each edge's target, adds the second linear layer of the node's own input, takes the maximum with
  0, and applies the head. The kernel gathers and sums the raw features x instead, counts each node's arriving edges,
  and inside its call multiplies the summed features into W^T once per node and adds the count times b: the same
  aggregate, by distributivity of the product over the finite sum of arriving edges and an exchange of two finite
  sums — laws that hold for real numbers and fail at an infinity, which is where the precondition is used. The rest of
  the call (second layer, maximum, head) is the reference's up to the association of a sum of three terms. A change of
  float format is the identity on the extended reals, so the kernel's narrowed matrix products are the reference's.

  The three frames are the generated ones (the reference's is its generated run with the results dropped); the
  idealization rewrote nothing, so there is nothing to preserve; the value claim sets the kernel's run, read as the
  specification's messages-first arrangement under finiteness, beside the reference's run, read as the same arrangement.
-/
import proofs.«134812_j43361989821071_2_alg».proof.Defs
import proofs.«134812_j43361989821071_2_alg».proof.Proof.Gen.Kernel
import proofs.«134812_j43361989821071_2_alg».proof.Proof.Gen.Kernel.Skeleton
import proofs.«134812_j43361989821071_2_alg».proof.Proof.Gen.Kernel.Launch
import proofs.«134812_j43361989821071_2_alg».proof.Proof.Gen.Kernel.Points
import proofs.«134812_j43361989821071_2_alg».proof.Proof.Gen.Kernel.Frame
import proofs.«134812_j43361989821071_2_alg».proof.Proof.Gen.KernelIdeal
import proofs.«134812_j43361989821071_2_alg».proof.Proof.Gen.KernelIdeal.Skeleton
import proofs.«134812_j43361989821071_2_alg».proof.Proof.Gen.KernelIdeal.Launch
import proofs.«134812_j43361989821071_2_alg».proof.Proof.Gen.KernelIdeal.Points
import proofs.«134812_j43361989821071_2_alg».proof.Proof.Gen.KernelIdeal.Frame
import proofs.«134812_j43361989821071_2_alg».proof.Proof.Gen.ReferenceIdeal
import proofs.«134812_j43361989821071_2_alg».proof.Proof.Gen.Pre_finite_inputs
import proofs.«134812_j43361989821071_2_alg».proof.Proof.Gen.KernelIdeal.Value
import proofs.«134812_j43361989821071_2_alg».proof.Proof.Gen.ReferenceIdeal.Run
import proofs.«134812_j43361989821071_2_alg».proof.Proof.Gen.ReferenceIdeal.Read
import proofs.«134812_j43361989821071_2_alg».proof.Proof.KernelValue
import proofs.«134812_j43361989821071_2_alg».proof.Proof.RefValue
import proofs.«134812_j43361989821071_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no call: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Under the precondition the first layer's features, weights and biases are real numbers, so the kernel's run ends
    at the messages-first arrangement of its arguments; the reference's run ends at the same arrangement of its own
    arguments, which are the kernel's; the two index columns are computed by the same operations on both sides. -/
theorem algebraic : Cert.algebraic_KernelIdeal_ReferenceIdeal := by
  intro m ρ m' ρ' hpre hagree
  have hfin := fun c => Cert.Finite.reals_of_pre _ _ _ _ _ _ _ _ _ (hpre c)
  refine ⟨_, _, Cert.KernelIdeal.Hand.run m ρ (fun c => (hfin c).1) (fun c => (hfin c).2.1) (fun c => (hfin c).2.2), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1, (hagree c).2.2.2.2.2.2.1]
    exact (Cert.ReferenceIdeal.Read.val_main_v25_eq _ _ _ _ _ _ _).trans (Cert.ReferenceIdeal.RefValue.hid_eq _ _ _ _ _ _ _)
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (Cert.ReferenceIdeal.Read.val_main_v30_eq _ _ _ _ _ _ _ _ _).trans (Cert.ReferenceIdeal.RefValue.out_eq _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
